-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1250000 : Shape := ⟨2, ![2, 1250000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S2x64x64 : Shape := ⟨3, ![2, 64, 64]⟩
abbrev S2x64 : Shape := ⟨2, ![2, 64]⟩
abbrev S64x10 : Shape := ⟨2, ![64, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S2x64 .f32) (main_arg14 : FVec F S64x10 .f32) (main_arg15 : FVec F S10 .f32) (main_v48 : IVec S_ 1) (main_v49 : FVec F S2x64x64 .f32) (main_v50 : FVec F S2x64x64 .f32) : IVec S_ 1 :=
  let main_v51 : IVec S2x64x64 1 := cmpf .olt main_v49 main_v50
  let main_c_19 : IVec S_ 1 := constantI S_ 1 1#1
  let main_v52 : IVec S_ 1 := (fun x v => Host.reduce IntOp.andi x v reducesTo_S2x64x64_S_d0_1_2 h_S_) main_v51 main_c_19
  let main_v53 : IVec S_ 1 := andi main_v48 main_v52
  let main_v54 : FVec F S2x64 .f32 := Host.absf main_arg13
  let main_cst_20 : FVec F S_ .f32 := constant S_ .f32 0x7F800000#32
  let main_v55 : FVec F S2x64 .f32 := broadcastInDim S2x64 ![] bcast_S_S2x64 main_cst_20
  let main_v56 : IVec S2x64 1 := cmpf .olt main_v54 main_v55
  let main_c_21 : IVec S_ 1 := constantI S_ 1 1#1
  let main_v57 : IVec S_ 1 := (fun x v => Host.reduce IntOp.andi x v reducesTo_S2x64_S_d0_1 h_S_) main_v56 main_c_21
  let main_v58 : IVec S_ 1 := andi main_v53 main_v57
  let main_v59 : FVec F S64x10 .f32 := Host.absf main_arg14
  let main_cst_22 : FVec F S_ .f32 := constant S_ .f32 0x7F800000#32
  let main_v60 : FVec F S64x10 .f32 := broadcastInDim S64x10 ![] bcast_S_S64x10 main_cst_22
  let main_v61 : IVec S64x10 1 := cmpf .olt main_v59 main_v60
  let main_c_23 : IVec S_ 1 := constantI S_ 1 1#1
  let main_v62 : IVec S_ 1 := (fun x v => Host.reduce IntOp.andi x v reducesTo_S64x10_S_d0_1 h_S_) main_v61 main_c_23
  let main_v63 : IVec S_ 1 := andi main_v58 main_v62
  let main_v64 : FVec F S10 .f32 := Host.absf main_arg15
  let main_cst_24 : FVec F S_ .f32 := constant S_ .f32 0x7F800000#32
  let main_v65 : FVec F S10 .f32 := broadcastInDim S10 ![] bcast_S_S10 main_cst_24
  let main_v66 : IVec S10 1 := cmpf .olt main_v64 main_v65
  let main_c_25 : IVec S_ 1 := constantI S_ 1 1#1
  let main_v67 : IVec S_ 1 := (fun x v => Host.reduce IntOp.andi x v reducesTo_S10_S_d0 h_S_) main_v66 main_c_25
  fn_part4 (F := F) main_v63 main_v67

def fn_part2 {F : FTy → Type} [FloatOps F] (main_arg9 : FVec F S2x64x64 .f32) (main_arg10 : FVec F S2x64x64 .f32) (main_arg11 : FVec F S2x64 .f32) (main_arg12 : FVec F S2x64x64 .f32) (main_arg13 : FVec F S2x64 .f32) (main_arg14 : FVec F S64x10 .f32) (main_arg15 : FVec F S10 .f32) (main_v33 : IVec S_ 1) : IVec S_ 1 :=
  let main_v34 : FVec F S2x64x64 .f32 := Host.absf main_arg9
  let main_cst_12 : FVec F S_ .f32 := constant S_ .f32 0x7F800000#32
  let main_v35 : FVec F S2x64x64 .f32 := broadcastInDim S2x64x64 ![] bcast_S_S2x64x64 main_cst_12
  let main_v36 : IVec S2x64x64 1 := cmpf .olt main_v34 main_v35
  let main_c_13 : IVec S_ 1 := constantI S_ 1 1#1
  let main_v37 : IVec S_ 1 := (fun x v => Host.reduce IntOp.andi x v reducesTo_S2x64x64_S_d0_1_2 h_S_) main_v36 main_c_13
  let main_v38 : IVec S_ 1 := andi main_v33 main_v37
  let main_v39 : FVec F S2x64x64 .f32 := Host.absf main_arg10
  let main_cst_14 : FVec F S_ .f32 := constant S_ .f32 0x7F800000#32
  let main_v40 : FVec F S2x64x64 .f32 := broadcastInDim S2x64x64 ![] bcast_S_S2x64x64 main_cst_14
  let main_v41 : IVec S2x64x64 1 := cmpf .olt main_v39 main_v40
  let main_c_15 : IVec S_ 1 := constantI S_ 1 1#1
  let main_v42 : IVec S_ 1 := (fun x v => Host.reduce IntOp.andi x v reducesTo_S2x64x64_S_d0_1_2 h_S_) main_v41 main_c_15
  let main_v43 : IVec S_ 1 := andi main_v38 main_v42
  let main_v44 : FVec F S2x64 .f32 := Host.absf main_arg11
  let main_cst_16 : FVec F S_ .f32 := constant S_ .f32 0x7F800000#32
  let main_v45 : FVec F S2x64 .f32 := broadcastInDim S2x64 ![] bcast_S_S2x64 main_cst_16
  let main_v46 : IVec S2x64 1 := cmpf .olt main_v44 main_v45
  let main_c_17 : IVec S_ 1 := constantI S_ 1 1#1
  let main_v47 : IVec S_ 1 := (fun x v => Host.reduce IntOp.andi x v reducesTo_S2x64_S_d0_1 h_S_) main_v46 main_c_17
  let main_v48 : IVec S_ 1 := andi main_v43 main_v47
  let main_v49 : FVec F S2x64x64 .f32 := Host.absf main_arg12
  let main_cst_18 : FVec F S_ .f32 := constant S_ .f32 0x7F800000#32
  let main_v50 : FVec F S2x64x64 .f32 := broadcastInDim S2x64x64 ![] bcast_S_S2x64x64 main_cst_18
  fn_part3 (F := F) main_arg13 main_arg14 main_arg15 main_v48 main_v49 main_v50

def fn_part1 {F : FTy → Type} [FloatOps F] (main_arg6 : FVec F S64 .f32) (main_arg7 : FVec F S2x64x64 .f32) (main_arg8 : FVec F S2x64 .f32) (main_arg9 : FVec F S2x64x64 .f32) (main_arg10 : FVec F S2x64x64 .f32) (main_arg11 : FVec F S2x64 .f32) (main_arg12 : FVec F S2x64x64 .f32) (main_arg13 : FVec F S2x64 .f32) (main_arg14 : FVec F S64x10 .f32) (main_arg15 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S2x64x64 .f32 := Host.absf main_arg7
  let main_cst_8 : FVec F S_ .f32 := constant S_ .f32 0x7F800000#32
  let main_v25 : FVec F S2x64x64 .f32 := broadcastInDim S2x64x64 ![] bcast_S_S2x64x64 main_cst_8
  let main_v26 : IVec S2x64x64 1 := cmpf .olt main_v24 main_v25
  let main_c_9 : IVec S_ 1 := constantI S_ 1 1#1
  let main_v27 : IVec S_ 1 := (fun x v => Host.reduce IntOp.andi x v reducesTo_S2x64x64_S_d0_1_2 h_S_) main_v26 main_c_9
  let main_v28 : IVec S_ 1 := andi main_v23 main_v27
  let main_v29 : FVec F S2x64 .f32 := Host.absf main_arg8
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : IVec S2x1250000 32) (main_arg2 : IVec S50000 32) (main_arg3 : FVec F S128x64 .f32) (main_arg4 : FVec F S64 .f32) (main_arg5 : FVec F S64x64 .f32) (main_arg6 : FVec F S64 .f32) (main_arg7 : FVec F S2x64x64 .f32) (main_arg8 : FVec F S2x64 .f32) (main_arg9 : FVec F S2x64x64 .f32) (main_arg10 : FVec F S2x64x64 .f32) (main_arg11 : FVec F S2x64 .f32) (main_arg12 : FVec F S2x64x64 .f32) (main_arg13 : FVec F S2x64 .f32) (main_arg14 : FVec F S64x10 .f32) (main_arg15 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x1250000 : Shape := ⟨2, ![2, 1250000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S2x64x64 : Shape := ⟨3, ![2, 64, 64]⟩
abbrev S2x64 : Shape := ⟨2, ![2, 64]⟩
abbrev S64x10 : Shape := ⟨2, ![64, 10]⟩
abbrev S10 : Shape := ⟨1, ![10]⟩
abbrev S1x1250000 : Shape := ⟨2, ![1, 1250000]⟩
abbrev S1250000 : Shape := ⟨1, ![1250000]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S_ : Shape := ⟨0, ![]⟩
abbrev S1250000x1 : Shape := ⟨2, ![1250000, 1]⟩
abbrev S50000x1 : Shape := ⟨2, ![50000, 1]⟩
abbrev S1250000x64 : Shape := ⟨2, ![1250000, 64]⟩
abbrev S1x64x64 : Shape := ⟨3, ![1, 64, 64]⟩
abbrev S5000x1 : Shape := ⟨2, ![5000, 1]⟩
abbrev S128 : Shape := ⟨1, ![128]⟩
abbrev S128x1 : Shape := ⟨2, ![128, 1]⟩
abbrev S128x10 : Shape := ⟨2, ![128, 10]⟩
abbrev S1x10 : Shape := ⟨2, ![1, 10]⟩

abbrev nBuf : Space → Nat
  | .hbm => 121
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S2x1250000, .i32⟩
  | .hbm, ⟨2, _⟩ => ⟨S50000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S2x64x64, .f32⟩
  | .hbm, ⟨8, _⟩ => ⟨S2x64, .f32⟩
  | .hbm, ⟨9, _⟩ => ⟨S2x64x64, .f32⟩
  | .hbm, ⟨10, _⟩ => ⟨S2x64x64, .f32⟩
  | .hbm, ⟨11, _⟩ => ⟨S2x64, .f32⟩
  | .hbm, ⟨12, _⟩ => ⟨S2x64x64, .f32⟩
  | .hbm, ⟨13, _⟩ => ⟨S2x64, .f32⟩
  | .hbm, ⟨14, _⟩ => ⟨S64x10, .f32⟩
  | .hbm, ⟨15, _⟩ => ⟨S10, .f32⟩
  | .hbm, ⟨16, _⟩ => ⟨S1x1250000, .i32⟩
  | .hbm, ⟨17, _⟩ => ⟨S1250000, .i32⟩
  | .hbm, ⟨18, _⟩ => ⟨S1x1250000, .i32⟩
  | .hbm, ⟨19, _⟩ => ⟨S1250000, .i32⟩
  | .hbm, ⟨20, _⟩ => ⟨S1x64, .f32⟩
  | .hbm, ⟨21, _⟩ => ⟨S1x64, .f32⟩
  | .hbm, ⟨22, _⟩ => ⟨S50000x64, .bf16⟩
  | .hbm, ⟨23, _⟩ => ⟨S_, .f32⟩
  | .hbm, ⟨24, _⟩ => ⟨S1250000, .f32⟩
  | .hbm, ⟨25, _⟩ => ⟨S_, .f32⟩
  | .hbm, ⟨26, _⟩ => ⟨S50000, .f32⟩
  | .hbm, ⟨27, _⟩ => ⟨S1250000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S_, .i32⟩
  | .hbm, ⟨37, _⟩ => ⟨S1250000, .i32⟩
  | .hbm, ⟨38, _⟩ => ⟨S1250000, .i1⟩
  | .hbm, ⟨39, _⟩ => ⟨S_, .i32⟩
  | .hbm, ⟨40, _⟩ => ⟨S1250000, .i32⟩
  | .hbm, ⟨41, _⟩ => ⟨S1250000, .i32⟩
  | .hbm, ⟨42, _⟩ => ⟨S1250000, .i32⟩
  | .hbm, ⟨43, _⟩ => ⟨S1250000x1, .i32⟩
  | .hbm, ⟨44, _⟩ => ⟨S1250000x64, .bf16⟩
  | .hbm, ⟨45, _⟩ => ⟨S1250000x64, .f32⟩
  | .hbm, ⟨46, _⟩ => ⟨S_, .f32⟩
  | .hbm, ⟨47, _⟩ => ⟨S50000x64, .f32⟩
  | .hbm, ⟨48, _⟩ => ⟨S1250000x1, .i32⟩
  | .hbm, ⟨49, _⟩ => ⟨S50000x64, .f32⟩
  | .hbm, ⟨50, _⟩ => ⟨S1x64x64, .f32⟩
  | .hbm, ⟨51, _⟩ => ⟨S64x64, .f32⟩
  | .hbm, ⟨52, _⟩ => ⟨S1x64, .f32⟩
  | .hbm, ⟨53, _⟩ => ⟨S64, .f32⟩
  | .hbm, ⟨54, _⟩ => ⟨S1x64x64, .f32⟩
  | .hbm, ⟨55, _⟩ => ⟨S64x64, .f32⟩
  | .hbm, ⟨56, _⟩ => ⟨S1x64x64, .f32⟩
  | .hbm, ⟨57, _⟩ => ⟨S64x64, .f32⟩
  | .hbm, ⟨58, _⟩ => ⟨S1x64, .f32⟩
  | .hbm, ⟨59, _⟩ => ⟨S64, .f32⟩
  | .hbm, ⟨60, _⟩ => ⟨S1x64x64, .f32⟩
  | .hbm, ⟨61, _⟩ => ⟨S64x64, .f32⟩
  | .hbm, ⟨62, _⟩ => ⟨S1x64, .f32⟩
  | .hbm, ⟨63, _⟩ => ⟨S64, .f32⟩
  | .hbm, ⟨64, _⟩ => ⟨S1x64, .f32⟩
  | .hbm, ⟨65, _⟩ => ⟨S1x64, .f32⟩
  | .hbm, ⟨66, _⟩ => ⟨S1x64, .f32⟩
  | .hbm, ⟨67, _⟩ => ⟨S50000x64, .bf16⟩
  | .hbm, ⟨68, _⟩ => ⟨S_, .i32⟩
  | .hbm, ⟨69, _⟩ => ⟨S1250000, .i32⟩
  | .hbm, ⟨70, _⟩ => ⟨S1250000, .i1⟩
  | .hbm, ⟨71, _⟩ => ⟨S_, .i32⟩
  | .hbm, ⟨72, _⟩ => ⟨S1250000, .i32⟩
  | .hbm, ⟨73, _⟩ => ⟨S1250000, .i32⟩
  | .hbm, ⟨74, _⟩ => ⟨S1250000, .i32⟩
  | .hbm, ⟨75, _⟩ => ⟨S1250000x1, .i32⟩
  | .hbm, ⟨76, _⟩ => ⟨S1250000x64, .bf16⟩
  | .hbm, ⟨77, _⟩ => ⟨S1250000x64, .f32⟩
  | .hbm, ⟨78, _⟩ => ⟨S_, .f32⟩
  | .hbm, ⟨79, _⟩ => ⟨S50000x64, .f32⟩
  | .hbm, ⟨80, _⟩ => ⟨S1250000x1, .i32⟩
  | .hbm, ⟨81, _⟩ => ⟨S50000x64, .f32⟩
  | .hbm, ⟨82, _⟩ => ⟨S1x64x64, .f32⟩
  | .hbm, ⟨83, _⟩ => ⟨S64x64, .f32⟩
  | .hbm, ⟨84, _⟩ => ⟨S1x64, .f32⟩
  | .hbm, ⟨85, _⟩ => ⟨S64, .f32⟩
  | .hbm, ⟨86, _⟩ => ⟨S1x64x64, .f32⟩
  | .hbm, ⟨87, _⟩ => ⟨S64x64, .f32⟩
  | .hbm, ⟨88, _⟩ => ⟨S1x64x64, .f32⟩
  | .hbm, ⟨89, _⟩ => ⟨S64x64, .f32⟩
  | .hbm, ⟨90, _⟩ => ⟨S1x64, .f32⟩
  | .hbm, ⟨91, _⟩ => ⟨S64, .f32⟩
  | .hbm, ⟨92, _⟩ => ⟨S1x64x64, .f32⟩
  | .hbm, ⟨93, _⟩ => ⟨S64x64, .f32⟩
  | .hbm, ⟨94, _⟩ => ⟨S1x64, .f32⟩
  | .hbm, ⟨95, _⟩ => ⟨S64, .f32⟩
  | .hbm, ⟨96, _⟩ => ⟨S1x64, .f32⟩
  | .hbm, ⟨97, _⟩ => ⟨S1x64, .f32⟩
  | .hbm, ⟨98, _⟩ => ⟨S1x64, .f32⟩
  | .hbm, ⟨99, _⟩ => ⟨S50000x64, .bf16⟩
  | .hbm, ⟨100, _⟩ => ⟨S_, .f32⟩
  | .hbm, ⟨101, _⟩ => ⟨S50000, .f32⟩
  | .hbm, ⟨102, _⟩ => ⟨S_, .f32⟩
  | .hbm, ⟨103, _⟩ => ⟨S128, .f32⟩
  | .hbm, ⟨104, _⟩ => ⟨S50000x1, .i32⟩
  | .hbm, ⟨105, _⟩ => ⟨S128, .f32⟩
  | .hbm, ⟨106, _⟩ => ⟨S50000x64, .f32⟩
  | .hbm, ⟨107, _⟩ => ⟨S_, .f32⟩
  | .hbm, ⟨108, _⟩ => ⟨S128x64, .f32⟩
  | .hbm, ⟨109, _⟩ => ⟨S50000x1, .i32⟩
  | .hbm, ⟨110, _⟩ => ⟨S128x64, .f32⟩
  | .hbm, ⟨111, _⟩ => ⟨S_, .f32⟩
  | .hbm, ⟨112, _⟩ => ⟨S128, .f32⟩
  | .hbm, ⟨113, _⟩ => ⟨S128, .f32⟩
  | .hbm, ⟨114, _⟩ => ⟨S128x1, .f32⟩
  | .hbm, ⟨115, _⟩ => ⟨S128x64, .f32⟩
  | .hbm, ⟨116, _⟩ => ⟨S128x64, .f32⟩
  | .hbm, ⟨117, _⟩ => ⟨S128x10, .f32⟩
  | .hbm, ⟨118, _⟩ => ⟨S1x10, .f32⟩
  | .hbm, ⟨119, _⟩ => ⟨S128x10, .f32⟩
  | .hbm, ⟨120, _⟩ => ⟨S128x10, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S5000x64, .bf16⟩
  | .local _ .vmem, ⟨7, _⟩ => ⟨S5000x64, .bf16⟩
  | .local _ .vmem, ⟨8, _⟩ => ⟨S5000x64, .f32⟩
  | .local _ .vmem, ⟨9, _⟩ => ⟨S5000x64, .f32⟩
  | .local _ .vmem, ⟨10, _⟩ => ⟨S5000x1, .f32⟩
  | .local _ .vmem, ⟨11, _⟩ => ⟨S5000x1, .f32⟩
  | .local _ .vmem, ⟨12, _⟩ => ⟨S5000x64, .bf16⟩
  | .local _ .vmem, ⟨13, _⟩ => ⟨S5000x64, .bf16⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S1x64, .f32⟩
  | .local _ .vmem, ⟨21, _⟩ => ⟨S5000x64, .bf16⟩
  | .local _ .vmem, ⟨22, _⟩ => ⟨S5000x64, .bf16⟩
  | .local _ .vmem, ⟨23, _⟩ => ⟨S5000x64, .f32⟩
  | .local _ .vmem, ⟨24, _⟩ => ⟨S5000x64, .f32⟩
  | .local _ .vmem, ⟨25, _⟩ => ⟨S5000x1, .f32⟩
  | .local _ .vmem, ⟨26, _⟩ => ⟨S5000x1, .f32⟩
  | .local _ .vmem, ⟨27, _⟩ => ⟨S5000x64, .bf16⟩
  | .local _ .vmem, ⟨28, _⟩ => ⟨S5000x64, .bf16⟩
  | .local _ .vmem, ⟨29, _⟩ => ⟨S64x64, .f32⟩
  | .local _ .vmem, ⟨30, _⟩ => ⟨S1x64, .f32⟩
  | .local _ .vmem, ⟨31, _⟩ => ⟨S64x64, .f32⟩
  | .local _ .vmem, ⟨32, _⟩ => ⟨S64x64, .f32⟩
  | .local _ .vmem, ⟨33, _⟩ => ⟨S1x64, .f32⟩
  | .local _ .vmem, ⟨34, _⟩ => ⟨S64x64, .f32⟩
  | .local _ .vmem, ⟨35, _⟩ => ⟨S1x64, .f32⟩
  | .local _ .vmem, ⟨36, _⟩ => ⟨S5000x64, .bf16⟩
  | .local _ .vmem, ⟨37, _⟩ => ⟨S5000x64, .bf16⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_5 : Ref sig .tc := ⟨.hbm, 68, rfl⟩
abbrev main_v45 : Ref sig .tc := ⟨.hbm, 69, rfl⟩
abbrev main_v46 : Ref sig .tc := ⟨.hbm, 70, rfl⟩
abbrev main_c_6 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_7 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_8 : Ref sig .tc := ⟨.hbm, 100, rfl⟩
abbrev main_v74 : Ref sig .tc := ⟨.hbm, 101, rfl⟩
abbrev main_cst_9 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_10 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_11 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg10_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg10_0 : Ref sig .tc := ⟨.vmem, 36, rfl⟩
abbrev cc2_stg10_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem10_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem9_0 : DmaSem sig := 35
abbrev cc2_sem10_0 : DmaSem sig := 36
abbrev cc2_sem10_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x64 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S5000x64 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S1250000 : S_.BroadcastsInDim S1250000 (![] : Fin 0 → Fin S1250000.rank)
  bcast_S_S50000 : S_.BroadcastsInDim S50000 (![] : Fin 0 → Fin S50000.rank)
  bcast_S1250000_S1250000x1_0 : S1250000.BroadcastsInDim S1250000x1 (![0] : Fin 1 → Fin S1250000x1.rank)
  shapeCasts_S50000_S50000x1 : S50000.ShapeCasts S50000x1
  bcast_S_S50000x64 : S_.BroadcastsInDim S50000x64 (![] : Fin 0 → Fin S50000x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  shapeCasts_S64x64_S64x64 : S64x64.ShapeCasts S64x64
  slices_S2x64x64_S1x64x64_1_0_0 : S2x64x64.Slices ![1, 0, 0] S1x64x64
  slices_S2x64_S1x64_1_0 : S2x64.Slices ![1, 0] S1x64
  bcast_S_S128 : S_.BroadcastsInDim S128 (![] : Fin 0 → Fin S128.rank)
  bcast_S50000_S50000x1_0 : S50000.BroadcastsInDim S50000x1 (![0] : Fin 1 → Fin S50000x1.rank)
  bcast_S_S128x64 : S_.BroadcastsInDim S128x64 (![] : Fin 0 → Fin S128x64.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  scatter_S50000_S1250000x1_S1250000_n_0_0_1_wf : ScatterDims.WF S50000 S1250000x1 S1250000 [] [0] [0] 1
  gather_S50000x64_S1250000x1_S1250000x64_1_0_n_n_0_1_164_wf : GatherDims.WF S50000x64 S1250000x1 S1250000x64 [1] [0] [] [0] [] 1 ![1, 64]
  scatter_S50000x64_S1250000x1_S1250000x64_1_0_0_1_wf : ScatterDims.WF S50000x64 S1250000x1 S1250000x64 [1] [0] [0] 1
  scatter_S128_S50000x1_S50000_n_0_0_1_wf : ScatterDims.WF S128 S50000x1 S50000 [] [0] [0] 1
  scatter_S128x64_S50000x1_S50000x64_1_0_0_1_wf : ScatterDims.WF S128x64 S50000x1 S50000x64 [1] [0] [0] 1
  dot_S128x64_S64x10_S128x10_1_0_0_1_n_n_wf : DotDims.WF S128x64 S64x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .bf16 = 32 ∨ (Rect.block (s := S50000x64) S5000x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .bf16 = 32 ∨ (Rect.block (s := S50000x64) S5000x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x64.size a ≤ S50000x64.size a
  hwx1_10 : ∀ i : grid1.Coords, EltTy.bits .bf16 = 32 ∨ (Rect.block (s := S50000x64) S5000x64.size (cc1_transform_10 i) (hinb1_10 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .bf16 = 32 ∨ (Rect.block (s := S50000x64) S5000x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .f32 = 32 ∨ (Rect.block (s := S64x64) S64x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x64.size a ≤ S64x64.size a
  hwx2_8 : ∀ i : grid2.Coords, EltTy.bits .f32 = 32 ∨ (Rect.block (s := S64x64) S64x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x64.size a ≤ S50000x64.size a
  hwx2_10 : ∀ i : grid2.Coords, EltTy.bits .bf16 = 32 ∨ (Rect.block (s := S50000x64) S5000x64.size (cc2_transform_10 i) (hinb2_10 i)).WholeWords (EltTy.packing .bf16)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S50000_S1250000x1_S1250000_n_0_0_1 : ScatterDims S50000 S1250000x1 S1250000 where
  updateWindowDims := []
  insertedWindowDims := [0]
  scatterDimsToOperandDims := [0]
  indexVectorDim := 1
  wf := scatter_S50000_S1250000x1_S1250000_n_0_0_1_wf
def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def scatter_S128x64_S50000x1_S50000x64_1_0_0_1 : ScatterDims S128x64 S50000x1 S50000x64 where
  updateWindowDims := [1]
  insertedWindowDims := [0]
  scatterDimsToOperandDims := [0]
  indexVectorDim := 1
  wf := scatter_S128x64_S50000x1_S50000x64_1_0_0_1_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v38) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v43) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v44) S5000x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v55) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v57) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v70) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v63) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v71) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v67) S64x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v72) S1x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v73) S5000x64.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x1250000 : Shape := ⟨2, ![2, 1250000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S2x64x64 : Shape := ⟨3, ![2, 64, 64]⟩
abbrev S2x64 : Shape := ⟨2, ![2, 64]⟩
abbrev S64x10 : Shape := ⟨2, ![64, 10]⟩
abbrev S10 : Shape := ⟨1, ![10]⟩
abbrev S1x1250000 : Shape := ⟨2, ![1, 1250000]⟩
abbrev S1250000 : Shape := ⟨1, ![1250000]⟩
abbrev S50000x64 : Shape := ⟨2, ![50000, 64]⟩
abbrev S1x64 : Shape := ⟨2, ![1, 64]⟩
abbrev S_ : Shape := ⟨0, ![]⟩
abbrev S1250000x1 : Shape := ⟨2, ![1250000, 1]⟩
abbrev S1250000x64 : Shape := ⟨2, ![1250000, 64]⟩
abbrev S50000x1 : Shape := ⟨2, ![50000, 1]⟩
abbrev S1x64x64 : Shape := ⟨3, ![1, 64, 64]⟩
abbrev S128 : Shape := ⟨1, ![128]⟩
abbrev S128x1 : Shape := ⟨2, ![128, 1]⟩
abbrev S128x10 : Shape := ⟨2, ![128, 10]⟩
abbrev S1x10 : Shape := ⟨2, ![1, 10]⟩

abbrev nBuf : Space → Nat
  | .hbm => 163
  | .vmem => 0
  | .smem => 0
  | _ => 0

abbrev hbmTy0_0 (i : Nat) : BufTy := match i % 128 with
  | 0 => ⟨S50000x128, .f32⟩
  | 1 => ⟨S2x1250000, .i32⟩
  | 2 => ⟨S50000, .i32⟩
  | 3 => ⟨S128x64, .f32⟩
  | 4 => ⟨S64, .f32⟩
  | 5 => ⟨S64x64, .f32⟩
  | 6 => ⟨S64, .f32⟩
  | 7 => ⟨S2x64x64, .f32⟩
  | 8 => ⟨S2x64, .f32⟩
  | 9 => ⟨S2x64x64, .f32⟩
  | 10 => ⟨S2x64x64, .f32⟩
  | 11 => ⟨S2x64, .f32⟩
  | 12 => ⟨S2x64x64, .f32⟩
  | 13 => ⟨S2x64, .f32⟩
  | 14 => ⟨S64x10, .f32⟩
  | 15 => ⟨S10, .f32⟩
  | 16 => ⟨S1x1250000, .i32⟩
  | 17 => ⟨S1250000, .i32⟩
  | 18 => ⟨S1x1250000, .i32⟩
  | 19 => ⟨S1250000, .i32⟩
  | 20 => ⟨S50000x64, .f32⟩
  | 21 => ⟨S1x64, .f32⟩
  | 22 => ⟨S50000x64, .f32⟩
  | 23 => ⟨S50000x64, .f32⟩
  | 24 => ⟨S_, .f32⟩
  | 25 => ⟨S50000x64, .f32⟩
  | 26 => ⟨S50000x64, .f32⟩
  | 27 => ⟨S50000x64, .f32⟩
  | 28 => ⟨S1x64, .f32⟩
  | 29 => ⟨S50000x64, .f32⟩
  | 30 => ⟨S50000x64, .f32⟩
  | 31 => ⟨S_, .f32⟩
  | 32 => ⟨S1250000, .f32⟩
  | 33 => ⟨S_, .f32⟩
  | 34 => ⟨S50000, .f32⟩
  | 35 => ⟨S1250000x1, .i32⟩
  | 36 => ⟨S50000, .f32⟩
  | 37 => ⟨S_, .f32⟩
  | 38 => ⟨S50000, .f32⟩
  | 39 => ⟨S50000, .f32⟩
  | 40 => ⟨S_, .f32⟩
  | 41 => ⟨S50000, .f32⟩
  | 42 => ⟨S50000, .f32⟩
  | 43 => ⟨S_, .i32⟩
  | 44 => ⟨S1250000, .i32⟩
  | 45 => ⟨S1250000, .i1⟩
  | 46 => ⟨S_, .i32⟩
  | 47 => ⟨S1250000, .i32⟩
  | 48 => ⟨S1250000, .i32⟩
  | 49 => ⟨S1250000, .i32⟩
  | 50 => ⟨S1250000x1, .i32⟩
  | 51 => ⟨S1250000x64, .f32⟩
  | 52 => ⟨S_, .f32⟩
  | 53 => ⟨S50000x64, .f32⟩
  | 54 => ⟨S1250000x1, .i32⟩
  | 55 => ⟨S50000x64, .f32⟩
  | 56 => ⟨S50000x1, .f32⟩
  | 57 => ⟨S50000x64, .f32⟩
  | 58 => ⟨S50000x64, .f32⟩
  | 59 => ⟨S1x64x64, .f32⟩
  | 60 => ⟨S64x64, .f32⟩
  | 61 => ⟨S50000x64, .f32⟩
  | 62 => ⟨S1x64, .f32⟩
  | 63 => ⟨S64, .f32⟩
  | 64 => ⟨S1x64, .f32⟩
  | 65 => ⟨S50000x64, .f32⟩
  | 66 => ⟨S50000x64, .f32⟩
  | 67 => ⟨S1x64x64, .f32⟩
  | 68 => ⟨S64x64, .f32⟩
  | 69 => ⟨S50000x64, .f32⟩
  | 70 => ⟨S50000x64, .f32⟩
  | 71 => ⟨S1x64x64, .f32⟩
  | 72 => ⟨S64x64, .f32⟩
  | 73 => ⟨S1x64, .f32⟩
  | 74 => ⟨S64, .f32⟩
  | 75 => ⟨S1x64x64, .f32⟩
  | 76 => ⟨S64x64, .f32⟩
  | 77 => ⟨S1x64, .f32⟩
  | 78 => ⟨S64, .f32⟩
  | 79 => ⟨S50000x64, .f32⟩
  | 80 => ⟨S1x64, .f32⟩
  | 81 => ⟨S50000x64, .f32⟩
  | 82 => ⟨S50000x64, .f32⟩
  | 83 => ⟨S_, .f32⟩
  | 84 => ⟨S50000x64, .f32⟩
  | 85 => ⟨S50000x64, .f32⟩
  | 86 => ⟨S50000x64, .f32⟩
  | 87 => ⟨S1x64, .f32⟩
  | 88 => ⟨S50000x64, .f32⟩
  | 89 => ⟨S50000x64, .f32⟩
  | 90 => ⟨S_, .f32⟩
  | 91 => ⟨S50000x64, .f32⟩
  | 92 => ⟨S50000x64, .f32⟩
  | 93 => ⟨S_, .i32⟩
  | 94 => ⟨S1250000, .i32⟩
  | 95 => ⟨S1250000, .i1⟩
  | 96 => ⟨S_, .i32⟩
  | 97 => ⟨S1250000, .i32⟩
  | 98 => ⟨S1250000, .i32⟩
  | 99 => ⟨S1250000, .i32⟩
  | 100 => ⟨S1250000x1, .i32⟩
  | 101 => ⟨S1250000x64, .f32⟩
  | 102 => ⟨S_, .f32⟩
  | 103 => ⟨S50000x64, .f32⟩
  | 104 => ⟨S1250000x1, .i32⟩
  | 105 => ⟨S50000x64, .f32⟩
  | 106 => ⟨S50000x1, .f32⟩
  | 107 => ⟨S50000x64, .f32⟩
  | 108 => ⟨S50000x64, .f32⟩
  | 109 => ⟨S1x64x64, .f32⟩
  | 110 => ⟨S64x64, .f32⟩
  | 111 => ⟨S50000x64, .f32⟩
  | 112 => ⟨S1x64, .f32⟩
  | 113 => ⟨S64, .f32⟩
  | 114 => ⟨S1x64, .f32⟩
  | 115 => ⟨S50000x64, .f32⟩
  | 116 => ⟨S50000x64, .f32⟩
  | 117 => ⟨S1x64x64, .f32⟩
  | 118 => ⟨S64x64, .f32⟩
  | 119 => ⟨S50000x64, .f32⟩
  | 120 => ⟨S50000x64, .f32⟩
  | 121 => ⟨S1x64x64, .f32⟩
  | 122 => ⟨S64x64, .f32⟩
  | 123 => ⟨S1x64, .f32⟩
  | 124 => ⟨S64, .f32⟩
  | 125 => ⟨S1x64x64, .f32⟩
  | 126 => ⟨S64x64, .f32⟩
  | 127 => ⟨S1x64, .f32⟩
  | _ => ⟨S50000x128, .f32⟩

abbrev hbmTy0_1 (i : Nat) : BufTy := match i % 128 with
  | 0 => ⟨S64, .f32⟩
  | 1 => ⟨S50000x64, .f32⟩
  | 2 => ⟨S1x64, .f32⟩
  | 3 => ⟨S50000x64, .f32⟩
  | 4 => ⟨S50000x64, .f32⟩
  | 5 => ⟨S_, .f32⟩
  | 6 => ⟨S50000x64, .f32⟩
  | 7 => ⟨S50000x64, .f32⟩
  | 8 => ⟨S50000x64, .f32⟩
  | 9 => ⟨S1x64, .f32⟩
  | 10 => ⟨S50000x64, .f32⟩
  | 11 => ⟨S50000x64, .f32⟩
  | 12 => ⟨S_, .f32⟩
  | 13 => ⟨S50000x64, .f32⟩
  | 14 => ⟨S50000x64, .f32⟩
  | 15 => ⟨S_, .f32⟩
  | 16 => ⟨S50000, .f32⟩
  | 17 => ⟨S_, .f32⟩
  | 18 => ⟨S128, .f32⟩
  | 19 => ⟨S50000x1, .i32⟩
  | 20 => ⟨S128, .f32⟩
  | 21 => ⟨S_, .f32⟩
  | 22 => ⟨S128x64, .f32⟩
  | 23 => ⟨S50000x1, .i32⟩
  | 24 => ⟨S128x64, .f32⟩
  | 25 => ⟨S_, .f32⟩
  | 26 => ⟨S128, .f32⟩
  | 27 => ⟨S128, .f32⟩
  | 28 => ⟨S128x1, .f32⟩
  | 29 => ⟨S128x64, .f32⟩
  | 30 => ⟨S128x64, .f32⟩
  | 31 => ⟨S128x10, .f32⟩
  | 32 => ⟨S1x10, .f32⟩
  | 33 => ⟨S128x10, .f32⟩
  | 34 => ⟨S128x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call0_cst : Ref sig .tc := ⟨.hbm, 24, rfl⟩
abbrev main_call0_v0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_cst_0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_v20 : Ref sig .tc := ⟨.hbm, 42, rfl⟩
abbrev main_c : Ref sig .tc := ⟨.hbm, 43, rfl⟩
abbrev main_v21 : Ref sig .tc := ⟨.hbm, 44, rfl⟩
abbrev main_v22 : Ref sig .tc := ⟨.hbm, 45, rfl⟩
abbrev main_c_3 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_4 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_call1_cst : Ref sig .tc := ⟨.hbm, 83, rfl⟩
abbrev main_call1_v0 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_call2_cst : Ref sig .tc := ⟨.hbm, 90, rfl⟩
abbrev main_call2_v0 : Ref sig .tc := ⟨.hbm, 91, rfl⟩
abbrev main_v63 : Ref sig .tc := ⟨.hbm, 92, rfl⟩
abbrev main_c_5 : Ref sig .tc := ⟨.hbm, 93, rfl⟩
abbrev main_v64 : Ref sig .tc := ⟨.hbm, 94, rfl⟩
abbrev main_v65 : Ref sig .tc := ⟨.hbm, 95, rfl⟩
abbrev main_c_6 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_7 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_call3_cst : Ref sig .tc := ⟨.hbm, 133, rfl⟩
abbrev main_call3_v0 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_call4_cst : Ref sig .tc := ⟨.hbm, 140, rfl⟩
abbrev main_call4_v0 : Ref sig .tc := ⟨.hbm, 141, rfl⟩
abbrev main_v106 : Ref sig .tc := ⟨.hbm, 142, rfl⟩
abbrev main_cst_8 : Ref sig .tc := ⟨.hbm, 143, rfl⟩
abbrev main_v107 : Ref sig .tc := ⟨.hbm, 144, rfl⟩
abbrev main_cst_9 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_10 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_11 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S_S1250000 : S_.BroadcastsInDim S1250000 (![] : Fin 0 → Fin S1250000.rank)
  bcast_S_S50000 : S_.BroadcastsInDim S50000 (![] : Fin 0 → Fin S50000.rank)
  bcast_S1250000_S1250000x1_0 : S1250000.BroadcastsInDim S1250000x1 (![0] : Fin 1 → Fin S1250000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  slices_S2x64x64_S1x64x64_1_0_0 : S2x64x64.Slices ![1, 0, 0] S1x64x64
  slices_S2x64_S1x64_1_0 : S2x64.Slices ![1, 0] S1x64
  bcast_S_S128 : S_.BroadcastsInDim S128 (![] : Fin 0 → Fin S128.rank)
  bcast_S_S128x64 : S_.BroadcastsInDim S128x64 (![] : Fin 0 → Fin S128x64.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  scatter_S50000_S1250000x1_S1250000_n_0_0_1_wf : ScatterDims.WF S50000 S1250000x1 S1250000 [] [0] [0] 1
  gather_S50000x64_S1250000x1_S1250000x64_1_0_n_n_0_1_164_wf : GatherDims.WF S50000x64 S1250000x1 S1250000x64 [1] [0] [] [0] [] 1 ![1, 64]
  scatter_S50000x64_S1250000x1_S1250000x64_1_0_0_1_wf : ScatterDims.WF S50000x64 S1250000x1 S1250000x64 [1] [0] [0] 1
  scatter_S128_S50000x1_S50000_n_0_0_1_wf : ScatterDims.WF S128 S50000x1 S50000 [] [0] [0] 1
  scatter_S128x64_S50000x1_S50000x64_1_0_0_1_wf : ScatterDims.WF S128x64 S50000x1 S50000x64 [1] [0] [0] 1
  dot_S128x64_S64x10_S128x10_1_0_0_1_n_n_wf : DotDims.WF S128x64 S64x10 S128x10 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S1250000x1_S1250000_n_0_0_1 : ScatterDims S50000 S1250000x1 S1250000 where
  updateWindowDims := []
  insertedWindowDims := [0]
  scatterDimsToOperandDims := [0]
  indexVectorDim := 1
  wf := scatter_S50000_S1250000x1_S1250000_n_0_0_1_wf
def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def scatter_S128x64_S50000x1_S50000x64_1_0_0_1 : ScatterDims S128x64 S50000x1 S50000x64 where
  updateWindowDims := [1]
  insertedWindowDims := [0]
  scatterDimsToOperandDims := [0]
  indexVectorDim := 1
  wf := scatter_S128x64_S50000x1_S50000x64_1_0_0_1_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

class Facts : Prop extends Facts₀ where

variable [Facts]
-- ==== Proof.KRun.lean ====
/-
  What the network's program leaves in its result array.

  The program is seven stretches in a row: host operations, the embedding kernel, host operations (degrees, the first
  gather and neighbour sum), the first layer kernel, host operations (the second gather and neighbour sum), the second
  layer kernel, and host operations (pooling and the classifier). The contents of every buffer at each boundary are a
  fold from the launch memory: a host stretch applies its operations, a kernel replaces its output array by what its
  grid points wrote back and leaves everything else alone. At the end every buffer the program can name holds the last
  fold's contents. Read at the argument arrays that is the launch memory again (nothing writes an argument); read at
  the result array it is the value stated here, which the later modules compute.
-/
import proofs.«107325_j9715216023821_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's run theorem finds its implicit arguments by unifying its conclusion with this one, which takes
-- unfolding plain definitions in a metavariable's type
set_option backward.isDefEq.respectTransparency.types false in
/-- Every weakly fair execution of the program terminates without a fault; the result array then holds the last
    boundary's contents at its buffer, and every argument array is as launched. -/
theorem run : θ_run defs (onTc (τ := τ) (main (F := F))) ⟨m, fun _ => 0, ρ⟩ (fun r => ∀ c : Dev nD,
      r.2.mem ((c.tc : Thread nD τ).loc main_v90) = W7 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v90 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c)⟩)

end Cert.KernelIdeal.ValueRun

end
-- ==== Proof.Spec.lean ====
/-
  The node-level arithmetic of a two-layer graph convolution network, one row at a time.

  Every dense stage of the network acts on the node axis row by row: the feature row of a node after a stage is a
  function of that node's rows before it (its own features, the sum gathered from its in-neighbours, its degree scale)
  and of the weights, and of nothing else. So the stages are written here as functions of ROWS, with no node count in
  them; a block of five thousand nodes and the whole array of fifty thousand apply the same function to their rows.

  * `affine x w b` is the row `x · w + b`: entry `q` is `(∑ k, x k * w k q) + b q`.
  * `relu0 z` is `max z 0`, the zero kept as the single-precision word both programs spell it with.
  * `embedRow` is the two-layer perceptron `relu0 (x · w₁ + b₁) · w₂ + b₂` of one input row.
  * `layerRow` is one graph-convolution layer at one node: with `a` the sum of the in-neighbours' rows, `d` the node's
    scale `1 / max(deg, 1)` and `h` its own row,
        `g = (a * d) · W_rel + b_rel + h · W_root`,   then   `relu0 (relu0 (g · W₁ + c₁) · W₂ + c₂)`.

  All sums and products are taken in the extended reals, in the order written; no law of arithmetic is used here.
-/
import Idealize.ShloMosaic.PureOps.Ideal
import Idealize.ShloMosaic.Lib.ValueIdx

open scoped BigOperators

noncomputable section

namespace Cert.GraphNet

open Idealize.ShloMosaic

/-- The row `x · w + b`. -/
def affine {K B : ℕ} (x : Fin K → EReal) (w : Fin K → Fin B → EReal) (b : Fin B → EReal) (q : Fin B) : EReal :=
  (∑ k : Fin K, x k * w k q) + b q

/-- `max z 0`, the zero as the single-precision word `0x00000000`. -/
def relu0 (z : EReal) : EReal := max z (Ideal.ofBits .f32 0x00000000#32)

/-- The node-embedding perceptron of one input row. -/
def embedRow {D H : ℕ} (x : Fin D → EReal) (w₁ : Fin D → Fin H → EReal) (b₁ : Fin H → EReal)
    (w₂ : Fin H → Fin H → EReal) (b₂ : Fin H → EReal) (q : Fin H) : EReal :=
  affine (fun j => relu0 (affine x w₁ b₁ j)) w₂ b₂ q

/-- The linear combination of a graph convolution at one node: the scaled neighbour sum through `W_rel` with its
    bias, plus the node's own row through `W_root`. -/
def convRow {H : ℕ} (a : Fin H → EReal) (d : EReal) (h : Fin H → EReal) (wrel : Fin H → Fin H → EReal)
    (brel : Fin H → EReal) (wroot : Fin H → Fin H → EReal) (j : Fin H) : EReal :=
  affine (fun k => a k * d) wrel brel j + ∑ k : Fin H, h k * wroot k j

/-- One graph-convolution layer at one node: the convolution, the two-layer perceptron after it, and the last
    rectification. -/
def layerRow {H : ℕ} (a : Fin H → EReal) (d : EReal) (h : Fin H → EReal) (wrel : Fin H → Fin H → EReal)
    (brel : Fin H → EReal) (wroot : Fin H → Fin H → EReal) (w₁ : Fin H → Fin H → EReal) (c₁ : Fin H → EReal)
    (w₂ : Fin H → Fin H → EReal) (c₂ : Fin H → EReal) (q : Fin H) : EReal :=
  relu0 (affine (fun j => relu0 (affine (convRow a d h wrel brel wroot) w₁ c₁ j)) w₂ c₂ q)

end Cert.GraphNet

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotSums.lean ====
/-
  Matrix products at the exact values, read entry by entry.

  For operands of shapes [A, K] and [K, B] whose dimension numbers say "no batch axes, contract axis 1 of the left
  against axis 0 of the right", both the in-kernel product accumulated into a zero tile and the host's `dot_general`
  have, at the entry (p, q), the value `∑ k < K, x (p, k) * y (k, q)`: over the extended reals neither carries a rounding
  or an order of summation, so the two are the same finite sum. The re-indexing of the contraction's own index set to
  `Fin K` is the rows-by-columns lemma for such records.
-/
import proofs.«107325_j9715216023821_2_alg».proof.Proof.LibPlainDot

open scoped BigOperators

namespace Cert.DotSums

open Idealize.ShloMosaic Idealize.ShloMosaic.ValueIdx

variable {A K B : Nat} (d : DotDims ⟨2, ![A, K]⟩ ⟨2, ![K, B]⟩ ⟨2, ![A, B]⟩)

/-- The in-kernel product into a zero accumulator, at (p, q): the plain sum along row p and column q. -/
theorem matmul_zero_ix2 {φ₁ φ₂ : FTy} (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.matmul d prec x y (constant ⟨2, ![A, B]⟩ .f32 0x00000000#32) (ix2 p q)
      = ∑ k : Fin K, (x (ix2 p k) : EReal) * (y (ix2 k q) : EReal) :=
  (Ideal.matmul_constant_zero_apply d prec x y (ix2 p q)).trans
    (Cert.PlainDot.sum_eq d hlb hln hlc hrb hrn hrc hr hs x y p q)

/-- The host's `dot_general`, at (p, q): the same plain sum, whatever the schedule key. -/
theorem dotGeneral_ix2 {φ₁ φ₂ : FTy} (prec : Option ContractPrecision) (sched : HostSchedule)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.dotGeneral d prec sched x y (ix2 p q)
      = ∑ k : Fin K, (x (ix2 p k) : EReal) * (y (ix2 k q) : EReal) :=
  (Ideal.dotGeneral_apply d prec sched x y (ix2 p q)).trans
    (Cert.PlainDot.sum_eq d hlb hln hlc hrb hrn hrc hr hs x y p q)

end Cert.DotSums
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.KBody.lean ====
/-
  What the three kernels compute, entry by entry, at the exact values.

  Each kernel body loads whole blocks (five thousand node rows, and the full weight matrices and bias rows), does
  matrix products into a zero tile, adds a bias row repeated down the block, and rectifies. Over the extended reals a
  change of float format is the identity and a matrix product into zero is the plain sum over the contracted index, so
  the stored block's entry at (r, q) is the specification's row function applied to row r of the row-tiled inputs:
  `embedRow` for the embedding kernel, `layerRow` for the two layer kernels (which are one body printed twice).
-/
import proofs.«107325_j9715216023821_2_alg».proof.Proof.Gen.KernelIdeal.Skeleton
import proofs.«107325_j9715216023821_2_alg».proof.Proof.Spec
import proofs.«107325_j9715216023821_2_alg».proof.Proof.LibDotSums
import proofs.«107325_j9715216023821_2_alg».proof.Proof.LibColumnLayout
import Idealize.ShloMosaic.Lib.ValueLayout
import Idealize.ShloMosaic.Lib.Pipeline.Value

open scoped BigOperators

noncomputable section

namespace Cert.GraphNet.Body

open Cert.KernelIdeal Cert.KernelIdeal.Gen Idealize.ShloMosaic Idealize.ShloMosaic.ValueIdx Cert.GraphNet

/-- A block of rows of width 128 times a 128-by-64 matrix, into the zero tile: the plain sum. -/
theorem mm128 {φ₁ φ₂ : FTy} (x : FVec Ideal S5000x128 φ₁) (y : FVec Ideal S128x64 φ₂) (p : Fin 5000) (q : Fin 64) :
    FloatOps.matmul dot_S5000x128_S128x64_S5000x64_1_0_0_1_n_n none x y (constant S5000x64 .f32 0x00000000#32) (ix2 p q)
      = ∑ k : Fin 128, (x (ix2 p k) : EReal) * (y (ix2 k q) : EReal) :=
  Cert.DotSums.matmul_zero_ix2 dot_S5000x128_S128x64_S5000x64_1_0_0_1_n_n none rfl rfl rfl rfl rfl rfl rfl rfl x y p q

/-- A block of rows of width 64 times a 64-by-64 matrix, into the zero tile: the plain sum. -/
theorem mm64 {φ₁ φ₂ : FTy} (x : FVec Ideal S5000x64 φ₁) (y : FVec Ideal S64x64 φ₂) (p : Fin 5000) (q : Fin 64) :
    FloatOps.matmul dot_S5000x64_S64x64_S5000x64_1_0_0_1_n_n none x y (constant S5000x64 .f32 0x00000000#32) (ix2 p q)
      = ∑ k : Fin 64, (x (ix2 p k) : EReal) * (y (ix2 k q) : EReal) :=
  Cert.DotSums.matmul_zero_ix2 dot_S5000x64_S64x64_S5000x64_1_0_0_1_n_n none rfl rfl rfl rfl rfl rfl rfl rfl x y p q

/-- A bias row repeated down the block reads its entry of the column. -/
theorem row_down {α : Type} (v : S1x64.Idx → α) (h : S1x64.Broadcasts S5000x64) (p : Fin 5000) (q : Fin 64) :
    broadcastTo S5000x64 v h (ix2 p q) = v (ix2 (0 : Fin 1) q) :=
  broadcastTo_1b_ab_apply v h p q

/-- The column of degree scales repeated across the block reads its entry of the row. -/
theorem col_across {α : Type} (v : S5000x1.Idx → α) (h : S5000x1.Broadcasts S5000x64) (p : Fin 5000) (q : Fin 64) :
    broadcastTo S5000x64 v h (ix2 p q) = v (ix2 p (0 : Fin 1)) :=
  Cert.ColumnLayout.broadcastTo_a1_ab_apply v h p q

/-- The row the embedding kernel stores: the perceptron of the block's input row. -/
theorem embed_apply (v0 : Vec Ideal S5000x128 .f32) (v2 : Vec Ideal S128x64 .f32) (v5 : Vec Ideal S1x64 .f32)
    (v12 : Vec Ideal S64x64 .f32) (v15 : Vec Ideal S1x64 .f32) (r : Fin 5000) (q : Fin 64) :
    k0_pay1 (F := Ideal) v0 v2 v5 v12 v15 (ix2 r q)
      = embedRow (fun k : Fin 128 => v0 (ix2 r k)) (fun k j => v2 (ix2 k j)) (fun j => v5 (ix2 (0 : Fin 1) j))
          (fun k j => v12 (ix2 k j)) (fun j => v15 (ix2 (0 : Fin 1) j)) q := by
  unfold k0_pay1 embedRow affine relu0
  simp only [truncf_apply, addf_apply, maximumf_apply, broadcast_apply, mm128, mm64, shapeCast_self, row_down]
  rfl

/-- The hidden row of layer kernel 1: the convolution of the row, through the first perceptron matrix, rectified. -/
theorem hidden1_apply (v0 : Vec Ideal S5000x64 .f32) (v2 : Vec Ideal S5000x1 .f32) (v7 : Vec Ideal S5000x64 .bf16)
    (v9 : Vec Ideal S64x64 .f32) (v12 : Vec Ideal S64x64 .f32) (v16 : Vec Ideal S1x64 .f32) (v22 : Vec Ideal S64x64 .f32)
    (v27 : Vec Ideal S1x64 .f32) (r : Fin 5000) (j : Fin 64) :
    k1_pay3 (F := Ideal) v0 v2 v7 v9 v12 v16 v22 v27 (ix2 r j)
      = relu0 (affine (convRow (fun k : Fin 64 => v0 (ix2 r k)) (v2 (ix2 r (0 : Fin 1))) (fun k : Fin 64 => v7 (ix2 r k))
          (fun k j => v9 (ix2 k j)) (fun j => v16 (ix2 (0 : Fin 1) j)) (fun k j => v12 (ix2 k j)))
          (fun k j => v22 (ix2 k j)) (fun j => v27 (ix2 (0 : Fin 1) j)) j) := by
  unfold k1_pay3 convRow affine relu0
  simp only [truncf_apply, addf_apply, mulf_apply, maximumf_apply, broadcast_apply, mm64, shapeCast_self, row_down, col_across]
  rfl

/-- The row layer kernel 1 stores: `layerRow` of the block's row of neighbour sums, its degree scale and its own row. -/
theorem layer1_apply (v0 : Vec Ideal S5000x64 .f32) (v2 : Vec Ideal S5000x1 .f32) (v7 : Vec Ideal S5000x64 .bf16)
    (v9 : Vec Ideal S64x64 .f32) (v12 : Vec Ideal S64x64 .f32) (v16 : Vec Ideal S1x64 .f32) (v22 : Vec Ideal S64x64 .f32)
    (v27 : Vec Ideal S1x64 .f32) (v33 : Vec Ideal S64x64 .f32) (v38 : Vec Ideal S1x64 .f32) (r : Fin 5000) (q : Fin 64) :
    k1_pay1 (F := Ideal) (k1_pay2 v33) (k1_pay3 v0 v2 v7 v9 v12 v16 v22 v27) v38 (ix2 r q)
      = layerRow (fun k : Fin 64 => v0 (ix2 r k)) (v2 (ix2 r (0 : Fin 1))) (fun k : Fin 64 => v7 (ix2 r k))
          (fun k j => v9 (ix2 k j)) (fun j => v16 (ix2 (0 : Fin 1) j)) (fun k j => v12 (ix2 k j))
          (fun k j => v22 (ix2 k j)) (fun j => v27 (ix2 (0 : Fin 1) j)) (fun k j => v33 (ix2 k j)) (fun j => v38 (ix2 (0 : Fin 1) j)) q := by
  unfold k1_pay1 k1_pay2 layerRow
  simp only [truncf_apply, addf_apply, maximumf_apply, broadcast_apply, mm64, shapeCast_self, row_down, hidden1_apply]
  unfold relu0 affine
  rfl

/-- The hidden row of layer kernel 2: the convolution of the row, through the first perceptron matrix, rectified. -/
theorem hidden2_apply (v0 : Vec Ideal S5000x64 .f32) (v2 : Vec Ideal S5000x1 .f32) (v7 : Vec Ideal S5000x64 .bf16)
    (v9 : Vec Ideal S64x64 .f32) (v12 : Vec Ideal S64x64 .f32) (v16 : Vec Ideal S1x64 .f32) (v22 : Vec Ideal S64x64 .f32)
    (v27 : Vec Ideal S1x64 .f32) (r : Fin 5000) (j : Fin 64) :
    k2_pay3 (F := Ideal) v0 v2 v7 v9 v12 v16 v22 v27 (ix2 r j)
      = relu0 (affine (convRow (fun k : Fin 64 => v0 (ix2 r k)) (v2 (ix2 r (0 : Fin 1))) (fun k : Fin 64 => v7 (ix2 r k))
          (fun k j => v9 (ix2 k j)) (fun j => v16 (ix2 (0 : Fin 1) j)) (fun k j => v12 (ix2 k j)))
          (fun k j => v22 (ix2 k j)) (fun j => v27 (ix2 (0 : Fin 1) j)) j) := by
  unfold k2_pay3 convRow affine relu0
  simp only [truncf_apply, addf_apply, mulf_apply, maximumf_apply, broadcast_apply, mm64, shapeCast_self, row_down, col_across]
  rfl

/-- The row layer kernel 2 stores: `layerRow` of the block's row of neighbour sums, its degree scale and its own row. -/
theorem layer2_apply (v0 : Vec Ideal S5000x64 .f32) (v2 : Vec Ideal S5000x1 .f32) (v7 : Vec Ideal S5000x64 .bf16)
    (v9 : Vec Ideal S64x64 .f32) (v12 : Vec Ideal S64x64 .f32) (v16 : Vec Ideal S1x64 .f32) (v22 : Vec Ideal S64x64 .f32)
    (v27 : Vec Ideal S1x64 .f32) (v33 : Vec Ideal S64x64 .f32) (v38 : Vec Ideal S1x64 .f32) (r : Fin 5000) (q : Fin 64) :
    k2_pay1 (F := Ideal) (k2_pay2 v33) (k2_pay3 v0 v2 v7 v9 v12 v16 v22 v27) v38 (ix2 r q)
      = layerRow (fun k : Fin 64 => v0 (ix2 r k)) (v2 (ix2 r (0 : Fin 1))) (fun k : Fin 64 => v7 (ix2 r k))
          (fun k j => v9 (ix2 k j)) (fun j => v16 (ix2 (0 : Fin 1) j)) (fun k j => v12 (ix2 k j))
          (fun k j => v22 (ix2 k j)) (fun j => v27 (ix2 (0 : Fin 1) j)) (fun k j => v33 (ix2 k j)) (fun j => v38 (ix2 (0 : Fin 1) j)) q := by
  unfold k2_pay1 k2_pay2 layerRow
  simp only [truncf_apply, addf_apply, maximumf_apply, broadcast_apply, mm64, shapeCast_self, row_down, hidden2_apply]
  unfold relu0 affine
  rfl

end Cert.GraphNet.Body

end
-- ==== Proof.KRegion2.lean ====
/-
  The array layer kernel 2 leaves.

  The kernel runs at ten grid points; point t loads rows 5000·t … 5000·t + 4999 of the neighbour sums, of the column of
  degree scales and of the node rows, the whole weight matrices and bias rows, and writes back the same rows of its
  result. What point t writes back is block t of ONE function of the arrays — the graph-convolution layer `layerRow`
  of each node's rows —, the ten blocks cover every row (row i lies in block i / 5000), and so the result array is
  that function.
-/
import proofs.«107325_j9715216023821_2_alg».proof.Proof.Gen.KernelIdeal.Frame
import proofs.«107325_j9715216023821_2_alg».proof.Proof.Spec
import proofs.«107325_j9715216023821_2_alg».proof.Proof.KBody
import Idealize.ShloMosaic.Lib.ValueIdx
import Idealize.ShloMosaic.Lib.Pipeline.Value

set_option maxRecDepth 16384

noncomputable section

namespace Cert.GraphNet.Region2

open Cert.KernelIdeal Cert.KernelIdeal.Gen Idealize.ShloMosaic Idealize.ShloMosaic.TcCoe Idealize.ShloMosaic.ValueIdx Cert.GraphNet
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the row-tiled windows (the neighbour sums, the degree scales, the node rows, the
    result) are at block (t, 0), the operands loaded whole at block (0, 0). -/
theorem idx_facts : ∀ t : Fin cfg2.N,
    win2_0.index t (0 : Fin 2) = t.val ∧ win2_0.index t (1 : Fin 2) = 0
  ∧ win2_1.index t (0 : Fin 2) = t.val ∧ win2_1.index t (1 : Fin 2) = 0
  ∧ win2_2.index t (0 : Fin 2) = t.val ∧ win2_2.index t (1 : Fin 2) = 0
  ∧ win2_3.index t (0 : Fin 2) = 0 ∧ win2_3.index t (1 : Fin 2) = 0
  ∧ win2_4.index t (0 : Fin 2) = 0 ∧ win2_4.index t (1 : Fin 2) = 0
  ∧ win2_5.index t (0 : Fin 2) = 0 ∧ win2_5.index t (1 : Fin 2) = 0
  ∧ win2_6.index t (0 : Fin 2) = 0 ∧ win2_6.index t (1 : Fin 2) = 0
  ∧ win2_7.index t (0 : Fin 2) = 0 ∧ win2_7.index t (1 : Fin 2) = 0
  ∧ win2_8.index t (0 : Fin 2) = 0 ∧ win2_8.index t (1 : Fin 2) = 0
  ∧ win2_9.index t (0 : Fin 2) = 0 ∧ win2_9.index t (1 : Fin 2) = 0
  ∧ win2_10.index t (0 : Fin 2) = t.val ∧ win2_10.index t (1 : Fin 2) = 0 :=
  (by decide +kernel : ∀ t : Fin grid2.N, _)

/-- The layer at every node: the node's row of neighbour sums, its degree scale and its own row through `layerRow`,
    read at column `i 1`. The degree scales come as a column `[50000, 1]`, the biases as rows `[1, 64]`. -/
def arr (agg : S50000x64.Idx → EReal) (dcol : S50000x1.Idx → EReal) (h : S50000x64.Idx → EReal)
    (wrel : S64x64.Idx → EReal) (brel : S1x64.Idx → EReal) (wroot : S64x64.Idx → EReal) (w₁ : S64x64.Idx → EReal)
    (c₁ : S1x64.Idx → EReal) (w₂ : S64x64.Idx → EReal) (c₂ : S1x64.Idx → EReal) : S50000x64.Idx → EReal :=
  fun i => layerRow (fun k : Fin 64 => agg (ix2 (i 0) k)) (dcol (ix2 (i 0) (0 : Fin 1))) (fun k : Fin 64 => h (ix2 (i 0) k))
    (fun k j => wrel (ix2 k j)) (fun j => brel (ix2 (0 : Fin 1) j)) (fun k j => wroot (ix2 k j))
    (fun k j => w₁ (ix2 k j)) (fun j => c₁ (ix2 (0 : Fin 1) j)) (fun k j => w₂ (ix2 k j)) (fun j => c₂ (ix2 (0 : Fin 1) j)) (i 1)

/-- The neighbour sums' block at point t, entry (r, k): the array at the row the result's block has at r. -/
theorem read_agg (c : Dev nD) (t : Fin cfg2.N) (r : Fin 5000) (q : Fin 64) (k : Fin 64) :
    iblk2 V c 0 t (ix2 r k) = V c main_v55 (ix2 ((((cfg2.win 10).blk t).view.emb (ix2 r q)) 0) k) := by
  obtain ⟨e00, e01, -, -, -, -, -, -, -, -, -, -, -, -, -, -, -, -, -, -, e100, e101⟩ := idx_facts t
  show V c main_v55 (((cfg2.win 0).blk t).view.emb (ix2 r k)) = _
  refine congrArg (V c main_v55) (funext fun a => Fin.ext ?_)
  match a with
  | ⟨0, _⟩ => show win2_0.index t (0 : Fin 2) * 5000 + 1 * r.val = win2_10.index t (0 : Fin 2) * 5000 + 1 * r.val; omega
  | ⟨1, _⟩ => show win2_0.index t (1 : Fin 2) * 64 + 1 * k.val = k.val; omega

/-- The degree scales' block at point t, entry (r, 0): the column at the row the result's block has at r. -/
theorem read_deg (c : Dev nD) (t : Fin cfg2.N) (r : Fin 5000) (q : Fin 64) (k : Fin 1) :
    iblk2 V c 1 t (ix2 r k) = V c main_v15 (ix2 ((((cfg2.win 10).blk t).view.emb (ix2 r q)) 0) k) := by
  obtain ⟨-, -, e10, e11, -, -, -, -, -, -, -, -, -, -, -, -, -, -, -, -, e100, e101⟩ := idx_facts t
  show V c main_v15 (((cfg2.win 1).blk t).view.emb (ix2 r k)) = _
  refine congrArg (V c main_v15) (funext fun a => Fin.ext ?_)
  match a with
  | ⟨0, _⟩ => show win2_1.index t (0 : Fin 2) * 5000 + 1 * r.val = win2_10.index t (0 : Fin 2) * 5000 + 1 * r.val; omega
  | ⟨1, _⟩ => show win2_1.index t (1 : Fin 2) * 1 + 1 * k.val = k.val; omega

/-- The node rows' block at point t, entry (r, k): the array at the row the result's block has at r. -/
theorem read_h (c : Dev nD) (t : Fin cfg2.N) (r : Fin 5000) (q : Fin 64) (k : Fin 64) :
    iblk2 V c 2 t (ix2 r k) = V c main_v44 (ix2 ((((cfg2.win 10).blk t).view.emb (ix2 r q)) 0) k) := by
  obtain ⟨-, -, -, -, e20, e21, -, -, -, -, -, -, -, -, -, -, -, -, -, -, e100, e101⟩ := idx_facts t
  show V c main_v44 (((cfg2.win 2).blk t).view.emb (ix2 r k)) = _
  refine congrArg (V c main_v44) (funext fun a => Fin.ext ?_)
  match a with
  | ⟨0, _⟩ => show win2_2.index t (0 : Fin 2) * 5000 + 1 * r.val = win2_10.index t (0 : Fin 2) * 5000 + 1 * r.val; omega
  | ⟨1, _⟩ => show win2_2.index t (1 : Fin 2) * 64 + 1 * k.val = k.val; omega

/-- The neighbour weight matrix is loaded whole. -/
theorem read_wrel (c : Dev nD) (t : Fin cfg2.N) (k : Fin 64) (j : Fin 64) :
    iblk2 V c 3 t (ix2 k j) = V c main_v57 (ix2 k j) := by
  obtain ⟨-, -, -, -, -, -, e30, e31, -, -, -, -, -, -, -, -, -, -, -, -, -, -⟩ := idx_facts t
  show V c main_v57 (((cfg2.win 3).blk t).view.emb (ix2 k j)) = _
  refine congrArg (V c main_v57) (funext fun a => Fin.ext ?_)
  match a with
  | ⟨0, _⟩ => show win2_3.index t (0 : Fin 2) * 64 + 1 * k.val = k.val; omega
  | ⟨1, _⟩ => show win2_3.index t (1 : Fin 2) * 64 + 1 * j.val = j.val; omega

/-- The convolution's bias row is loaded whole. -/
theorem read_brel (c : Dev nD) (t : Fin cfg2.N) (k : Fin 1) (j : Fin 64) :
    iblk2 V c 4 t (ix2 k j) = V c main_v70 (ix2 k j) := by
  obtain ⟨-, -, -, -, -, -, -, -, e40, e41, -, -, -, -, -, -, -, -, -, -, -, -⟩ := idx_facts t
  show V c main_v70 (((cfg2.win 4).blk t).view.emb (ix2 k j)) = _
  refine congrArg (V c main_v70) (funext fun a => Fin.ext ?_)
  match a with
  | ⟨0, _⟩ => show win2_4.index t (0 : Fin 2) * 1 + 1 * k.val = k.val; omega
  | ⟨1, _⟩ => show win2_4.index t (1 : Fin 2) * 64 + 1 * j.val = j.val; omega

/-- The root weight matrix is loaded whole. -/
theorem read_wroot (c : Dev nD) (t : Fin cfg2.N) (k : Fin 64) (j : Fin 64) :
    iblk2 V c 5 t (ix2 k j) = V c main_v61 (ix2 k j) := by
  obtain ⟨-, -, -, -, -, -, -, -, -, -, e50, e51, -, -, -, -, -, -, -, -, -, -⟩ := idx_facts t
  show V c main_v61 (((cfg2.win 5).blk t).view.emb (ix2 k j)) = _
  refine congrArg (V c main_v61) (funext fun a => Fin.ext ?_)
  match a with
  | ⟨0, _⟩ => show win2_5.index t (0 : Fin 2) * 64 + 1 * k.val = k.val; omega
  | ⟨1, _⟩ => show win2_5.index t (1 : Fin 2) * 64 + 1 * j.val = j.val; omega

/-- The perceptron's first matrix is loaded whole. -/
theorem read_w1 (c : Dev nD) (t : Fin cfg2.N) (k : Fin 64) (j : Fin 64) :
    iblk2 V c 6 t (ix2 k j) = V c main_v63 (ix2 k j) := by
  obtain ⟨-, -, -, -, -, -, -, -, -, -, -, -, e60, e61, -, -, -, -, -, -, -, -⟩ := idx_facts t
  show V c main_v63 (((cfg2.win 6).blk t).view.emb (ix2 k j)) = _
  refine congrArg (V c main_v63) (funext fun a => Fin.ext ?_)
  match a with
  | ⟨0, _⟩ => show win2_6.index t (0 : Fin 2) * 64 + 1 * k.val = k.val; omega
  | ⟨1, _⟩ => show win2_6.index t (1 : Fin 2) * 64 + 1 * j.val = j.val; omega

/-- The perceptron's first bias row is loaded whole. -/
theorem read_c1 (c : Dev nD) (t : Fin cfg2.N) (k : Fin 1) (j : Fin 64) :
    iblk2 V c 7 t (ix2 k j) = V c main_v71 (ix2 k j) := by
  obtain ⟨-, -, -, -, -, -, -, -, -, -, -, -, -, -, e70, e71, -, -, -, -, -, -⟩ := idx_facts t
  show V c main_v71 (((cfg2.win 7).blk t).view.emb (ix2 k j)) = _
  refine congrArg (V c main_v71) (funext fun a => Fin.ext ?_)
  match a with
  | ⟨0, _⟩ => show win2_7.index t (0 : Fin 2) * 1 + 1 * k.val = k.val; omega
  | ⟨1, _⟩ => show win2_7.index t (1 : Fin 2) * 64 + 1 * j.val = j.val; omega

/-- The perceptron's second matrix is loaded whole. -/
theorem read_w2 (c : Dev nD) (t : Fin cfg2.N) (k : Fin 64) (j : Fin 64) :
    iblk2 V c 8 t (ix2 k j) = V c main_v67 (ix2 k j) := by
  obtain ⟨-, -, -, -, -, -, -, -, -, -, -, -, -, -, -, -, e80, e81, -, -, -, -⟩ := idx_facts t
  show V c main_v67 (((cfg2.win 8).blk t).view.emb (ix2 k j)) = _
  refine congrArg (V c main_v67) (funext fun a => Fin.ext ?_)
  match a with
  | ⟨0, _⟩ => show win2_8.index t (0 : Fin 2) * 64 + 1 * k.val = k.val; omega
  | ⟨1, _⟩ => show win2_8.index t (1 : Fin 2) * 64 + 1 * j.val = j.val; omega

/-- The perceptron's second bias row is loaded whole. -/
theorem read_c2 (c : Dev nD) (t : Fin cfg2.N) (k : Fin 1) (j : Fin 64) :
    iblk2 V c 9 t (ix2 k j) = V c main_v72 (ix2 k j) := by
  obtain ⟨-, -, -, -, -, -, -, -, -, -, -, -, -, -, -, -, -, -, e90, e91, -, -⟩ := idx_facts t
  show V c main_v72 (((cfg2.win 9).blk t).view.emb (ix2 k j)) = _
  refine congrArg (V c main_v72) (funext fun a => Fin.ext ?_)
  match a with
  | ⟨0, _⟩ => show win2_9.index t (0 : Fin 2) * 1 + 1 * k.val = k.val; omega
  | ⟨1, _⟩ => show win2_9.index t (1 : Fin 2) * 64 + 1 * j.val = j.val; omega

/-- The result's block at point t keeps the column: entry (r, q) sits in column q of the array. -/
theorem out_col (t : Fin cfg2.N) (r : Fin 5000) (q : Fin 64) :
    (((cfg2.win 10).blk t).view.emb (ix2 r q)) 1 = q := by
  obtain ⟨-, -, -, -, -, -, -, -, -, -, -, -, -, -, -, -, -, -, -, -, e100, e101⟩ := idx_facts t
  refine Fin.ext ?_
  show win2_10.index t (1 : Fin 2) * 64 + 1 * q.val = q.val
  omega

/-- WHAT POINT t WRITES BACK is block t of `arr` of the arrays as the kernel finds them. -/
theorem flushed_eq (c : Dev nD) (t : Fin cfg2.N) :
    (dat2 (F := Ideal) V c).flushed 10 t = ((cfg2.win 10).blk t).view.read (Elt Ideal)
      (arr (V c main_v55) (V c main_v15) (V c main_v44) (V c main_v57) (V c main_v70) (V c main_v61) (V c main_v63) (V c main_v71) (V c main_v67) (V c main_v72)) := by
  show (cfg2.win 10).cut (grid2.coords t) ((dat2 V c).after 10 t) = _
  rw [after2_10]
  unfold out2_10
  rw [View.canon_unit_zero hz]
  simp only [View.ld_unit_zero (S := S5000x64) hz, View.ld_unit_zero (S := S5000x1) hz, View.ld_unit_zero (S := S1x64) hz,
    View.ld_unit_zero (S := S64x64) hz]
  funext j
  obtain ⟨r, q, rfl⟩ : ∃ (r : Fin 5000) (q : Fin 64), j = ix2 r q := ⟨j 0, j 1, eq_ix2 j⟩
  show k2_pay1 (k2_pay2 (iblk2 V c 8 t)) (k2_pay3 (iblk2 V c 0 t) (iblk2 V c 1 t) (iblk2 V c 2 t) (iblk2 V c 3 t) (iblk2 V c 5 t) (iblk2 V c 4 t) (iblk2 V c 6 t) (iblk2 V c 7 t)) (iblk2 V c 9 t) (ix2 r q)
    = arr (V c main_v55) (V c main_v15) (V c main_v44) (V c main_v57) (V c main_v70) (V c main_v61) (V c main_v63) (V c main_v71) (V c main_v67) (V c main_v72) (((cfg2.win 10).blk t).view.emb (ix2 r q))
  refine (Body.layer2_apply (iblk2 V c 0 t) (iblk2 V c 1 t) (iblk2 V c 2 t) (iblk2 V c 3 t) (iblk2 V c 5 t) (iblk2 V c 4 t) (iblk2 V c 6 t) (iblk2 V c 7 t) (iblk2 V c 8 t) (iblk2 V c 9 t) r q).trans ?_
  unfold arr
  rw [out_col t r q]
  simp only [read_agg V c t r q, read_deg V c t r q, read_h V c t r q, read_wrel V c t, read_brel V c t, read_wroot V c t,
    read_w1 V c t, read_c1 V c t, read_w2 V c t, read_c2 V c t]

/-- An index of the array is in point t's block iff each coordinate is in the block's range on its axis. -/
theorem mem_blk (t : Fin cfg2.N) (i : S50000x64.Idx) :
    i ∈ ((cfg2.win 10).blk t).view.set ↔ ∀ a : Fin 2, win2_10.index t a * S5000x64.size a ≤ (i a).val
      ∧ (i a).val < win2_10.index t a * S5000x64.size a + S5000x64.size a := by
  show i ∈ ((View.whole main_v73).slice (win2_10.rect t)).set ↔ _
  rw [View.set_slice_whole, Rect.mem_set_unit]
  exact Iff.rfl

/-- Every row is in some point's block: row i in block i / 5000. -/
theorem cover (i : S50000x64.Idx) :
    ∃ t : Fin cfg2.N, (cfg2.win 10).flush t = true ∧ i ∈ ((cfg2.win 10).blk t).view.set := by
  have hi0 : (i 0).val < 50000 := (i 0).isLt
  have hi1 : (i 1).val < 64 := (i 1).isLt
  have hN : grid2.N = 10 := N_2
  have ht : (i 0).val / 5000 < grid2.N := by omega
  obtain ⟨-, -, -, -, -, -, -, -, -, -, -, -, -, -, -, -, -, -, -, -, e100, e101⟩ := idx_facts ⟨(i 0).val / 5000, ht⟩
  refine ⟨⟨(i 0).val / 5000, ht⟩, flush2_10 _, ?_⟩
  rw [mem_blk]
  intro a
  match a with
  | ⟨0, _⟩ =>
    show win2_10.index ⟨(i 0).val / 5000, ht⟩ (0 : Fin 2) * 5000 ≤ (i 0).val
      ∧ (i 0).val < win2_10.index ⟨(i 0).val / 5000, ht⟩ (0 : Fin 2) * 5000 + 5000
    rw [e100]; show (i 0).val / 5000 * 5000 ≤ (i 0).val ∧ (i 0).val < (i 0).val / 5000 * 5000 + 5000; omega
  | ⟨1, _⟩ =>
    show win2_10.index ⟨(i 0).val / 5000, ht⟩ (1 : Fin 2) * 64 ≤ (i 1).val
      ∧ (i 1).val < win2_10.index ⟨(i 0).val / 5000, ht⟩ (1 : Fin 2) * 64 + 64
    rw [e101]; omega

/-- THE ARRAY after the kernel: `arr` of the arrays as the kernel finds them. -/
theorem arr_eq (c : Dev nD) :
    (dat2 (F := Ideal) V c).arrAt 10 cfg2.N = arr (V c main_v55) (V c main_v15) (V c main_v44) (V c main_v57) (V c main_v70) (V c main_v61) (V c main_v63) (V c main_v71) (V c main_v67) (V c main_v72) :=
  (dat2 V c).arrAt_eq_of_cover 10 _ (fun t _ => flushed_eq V c t) cover

end Cert.GraphNet.Region2

end
-- ==== Proof.RefStages.lean ====
/-
  The reference network's dense stages, read one node at a time.

  The reference program computes, on the whole node array at once, an embedding perceptron and then two graph-convolution
  layers. Each of its dense operations (a matrix product against a weight, the addition of a bias row, the product with
  the per-node degree scale, a rectification) gives the entry (p, q) of its result from row p of its operands and from
  the weights alone. Read entry by entry, the stages therefore compose into the row functions of the specification:

  * the embedding's last sum, at (p, q), is `embedRow` of row p of the input features;
  * the first layer's last rectification, at (p, q), is `layerRow` of row p of the neighbour sum, the degree scale of
    node p and row p of the embedding, with the first slices of the stacked weights and biases;
  * the second layer's last rectification, at (p, q), is `layerRow` of row p of its own neighbour sum, the same degree
    scale and row p of the first layer's result, with the second slices.

  The neighbour sums (each a scatter of gathered rows), the degree scale and the sliced weights enter as named arrays;
  nothing is said here about how they are computed. Every step is an unfolding: a matrix product at (p, q) is the sum
  over k of left (p, k) times right (k, q); a bias broadcast along the node axis is, at (p, q), the bias at q; the scale
  broadcast along the feature axis is, at (p, q), the scale at p; a rectification is the maximum with the
  single-precision word of zero, which is kept as that word. Sums and products stay in the order the program writes
  them, and no law of arithmetic is used.
-/
import proofs.«107325_j9715216023821_2_alg».proof.Proof.Gen.ReferenceIdeal.Read
import proofs.«107325_j9715216023821_2_alg».proof.Proof.Spec

open scoped BigOperators

noncomputable section

namespace Cert.GraphNet.Ref

open Cert.ReferenceIdeal Cert.ReferenceIdeal.Read Idealize.ShloMosaic Idealize.ShloMosaic.ValueIdx Cert.GraphNet

/-! ## Indices by their coordinates -/

/-- Two rank-1 indices with the same coordinate are the same index. -/
theorem idx1_ext {n : Nat} {f g : (⟨1, ![n]⟩ : Shape).Idx} (h0 : f 0 = g 0) : f = g := by
  funext a
  match a with
  | ⟨0, _⟩ => exact h0

/-- Two rank-2 indices with the same two coordinates are the same index. -/
theorem idx2_ext {n0 n1 : Nat} {f g : (⟨2, ![n0, n1]⟩ : Shape).Idx} (h0 : f 0 = g 0) (h1 : f 1 = g 1) : f = g := by
  funext a
  match a with
  | ⟨0, _⟩ => exact h0
  | ⟨1, _⟩ => exact h1

variable (x0 : (⟨S50000x128, .f32⟩ : BufTy).Contents (Elt Ideal)) (x1 : (⟨S2x1250000, .i32⟩ : BufTy).Contents (Elt Ideal))
  (x3 : (⟨S128x64, .f32⟩ : BufTy).Contents (Elt Ideal)) (x4 : (⟨S64, .f32⟩ : BufTy).Contents (Elt Ideal))
  (x5 : (⟨S64x64, .f32⟩ : BufTy).Contents (Elt Ideal)) (x6 : (⟨S64, .f32⟩ : BufTy).Contents (Elt Ideal))
  (x7 : (⟨S2x64x64, .f32⟩ : BufTy).Contents (Elt Ideal)) (x8 : (⟨S2x64, .f32⟩ : BufTy).Contents (Elt Ideal))
  (x9 x10 : (⟨S2x64x64, .f32⟩ : BufTy).Contents (Elt Ideal)) (x11 : (⟨S2x64, .f32⟩ : BufTy).Contents (Elt Ideal))
  (x12 : (⟨S2x64x64, .f32⟩ : BufTy).Contents (Elt Ideal)) (x13 : (⟨S2x64, .f32⟩ : BufTy).Contents (Elt Ideal))

/-! ## The embedding perceptron -/

/-- The input features through the embedding's first weight, entry by entry. -/
theorem v4_row (p : Fin 50000) (q : Fin 64) :
    val_main_v4 (F := Ideal) x0 x3 (ix2 p q) = ∑ k : Fin 128, x0 (ix2 p k) * x3 (ix2 k q) := by
  rewrite [val_main_v4_apply]
  refine Finset.sum_congr rfl fun k _ => ?_
  rewrite [show lidx_main_v4 (ix2 p q) k = ix2 p k from idx2_ext rfl rfl,
    show ridx_main_v4 (ix2 p q) k = ix2 k q from idx2_ext rfl rfl]
  rfl

/-- The embedding's first bias, broadcast along the node axis: at (p, q) it is the bias at q. -/
theorem v6_row (p : Fin 50000) (q : Fin 64) :
    val_main_v6 (F := Ideal) x4 (ix2 p q) = x4 (ix1 q) := by
  rewrite [val_main_v6_apply, val_main_v5_apply]
  exact congrArg (x4) (idx1_ext rfl)

/-- The zero the embedding's rectification compares with, at every entry: the single-precision word of zero. -/
theorem zero0_row (i : S50000x64.Idx) :
    val_main_call0_v0 (F := Ideal) i = Ideal.ofBits .f32 0x00000000#32 :=
  (val_main_call0_v0_apply (F := Ideal) i).trans (val_main_call0_cst_apply (F := Ideal) _)

/-- The embedding's hidden row at (p, q): the rectified affine image of row p of the input features. -/
theorem v8_row (p : Fin 50000) (q : Fin 64) :
    val_main_v8 (F := Ideal) x0 x3 x4 (ix2 p q)
      = relu0 (affine (fun k : Fin 128 => x0 (ix2 p k)) (fun k j => x3 (ix2 k j)) (fun j => x4 (ix1 j)) q) := by
  rewrite [val_main_v8_apply, val_main_v7_apply, v4_row, v6_row, zero0_row]
  simp only [relu0, affine, Ideal.addf_def, Ideal.maximumf_def]

/-- The hidden row through the embedding's second weight, entry by entry. -/
theorem v9_row (p : Fin 50000) (q : Fin 64) :
    val_main_v9 (F := Ideal) x0 x3 x4 x5 (ix2 p q) = ∑ k : Fin 64, val_main_v8 (F := Ideal) x0 x3 x4 (ix2 p k) * x5 (ix2 k q) := by
  rewrite [val_main_v9_apply]
  refine Finset.sum_congr rfl fun k _ => ?_
  rewrite [show lidx_main_v9 (ix2 p q) k = ix2 p k from idx2_ext rfl rfl,
    show ridx_main_v9 (ix2 p q) k = ix2 k q from idx2_ext rfl rfl]
  rfl

/-- The embedding's second bias, broadcast along the node axis. -/
theorem v11_row (p : Fin 50000) (q : Fin 64) :
    val_main_v11 (F := Ideal) x6 (ix2 p q) = x6 (ix1 q) := by
  rewrite [val_main_v11_apply, val_main_v10_apply]
  exact congrArg (x6) (idx1_ext rfl)

/-- The embedding at (p, q) is `embedRow` of row p of the input features. -/
theorem embed_apply (p : Fin 50000) (q : Fin 64) :
    val_main_v12 (F := Ideal) x0 x3 x4 x5 x6 (ix2 p q)
      = embedRow (fun k : Fin 128 => x0 (ix2 p k)) (fun k j => x3 (ix2 k j)) (fun j => x4 (ix1 j))
          (fun k j => x5 (ix2 k j)) (fun j => x6 (ix1 j)) q := by
  rewrite [val_main_v12_apply, v9_row, v11_row]
  simp only [embedRow, affine, v8_row, Ideal.addf_def]

/-! ## The first graph-convolution layer -/

/-- The degree scale, broadcast along the feature axis: at (p, q) it is the scale of node p. -/
theorem v32_row (p : Fin 50000) (q : Fin 64) :
    val_main_v32 (F := Ideal) x1 (ix2 p q) = val_main_v20 (F := Ideal) x1 (ix1 p) := by
  rewrite [val_main_v32_apply, val_main_v31_apply]
  exact congrArg (val_main_v20 (F := Ideal) x1) (idx1_ext rfl)

/-- The scaled neighbour sum at (p, q): the neighbour sum there times the scale of node p. -/
theorem v33_row (p : Fin 50000) (q : Fin 64) :
    val_main_v33 (F := Ideal) x0 x1 x3 x4 x5 x6 (ix2 p q)
      = val_main_v30 (F := Ideal) x0 x1 x3 x4 x5 x6 (ix2 p q) * val_main_v20 (F := Ideal) x1 (ix1 p) := by
  rewrite [val_main_v33_apply, v32_row]
  rfl

/-- The scaled neighbour sum through the neighbour weight, entry by entry. -/
theorem v36_row (p : Fin 50000) (q : Fin 64) :
    val_main_v36 (F := Ideal) x0 x1 x3 x4 x5 x6 x7 (ix2 p q) = ∑ k : Fin 64, val_main_v33 (F := Ideal) x0 x1 x3 x4 x5 x6 (ix2 p k) * val_main_v35 (F := Ideal) x7 (ix2 k q) := by
  rewrite [val_main_v36_apply]
  refine Finset.sum_congr rfl fun k _ => ?_
  rewrite [show lidx_main_v36 (ix2 p q) k = ix2 p k from idx2_ext rfl rfl,
    show ridx_main_v36 (ix2 p q) k = ix2 k q from idx2_ext rfl rfl]
  rfl

/-- The neighbour bias, broadcast along the node axis: at (p, q) it is the bias at q. -/
theorem v40_row (p : Fin 50000) (q : Fin 64) :
    val_main_v40 (F := Ideal) x8 (ix2 p q) = val_main_v38 (F := Ideal) x8 (ix1 q) := by
  rewrite [val_main_v40_apply, val_main_v39_apply]
  exact congrArg (val_main_v38 (F := Ideal) x8) (idx1_ext rfl)

/-- The node's own row through the root weight, entry by entry. -/
theorem v44_row (p : Fin 50000) (q : Fin 64) :
    val_main_v44 (F := Ideal) x0 x3 x4 x5 x6 x9 (ix2 p q) = ∑ k : Fin 64, val_main_v12 (F := Ideal) x0 x3 x4 x5 x6 (ix2 p k) * val_main_v43 (F := Ideal) x9 (ix2 k q) := by
  rewrite [val_main_v44_apply]
  refine Finset.sum_congr rfl fun k _ => ?_
  rewrite [show lidx_main_v44 (ix2 p q) k = ix2 p k from idx2_ext rfl rfl,
    show ridx_main_v44 (ix2 p q) k = ix2 k q from idx2_ext rfl rfl]
  rfl

/-- The convolution at (p, q) is `convRow` of row p of the neighbour sum, the scale of node p and row p of the layer's
    input. -/
theorem v45_row (p : Fin 50000) (q : Fin 64) :
    val_main_v45 (F := Ideal) x0 x1 x3 x4 x5 x6 x7 x8 x9 (ix2 p q)
      = convRow (fun k : Fin 64 => val_main_v30 (F := Ideal) x0 x1 x3 x4 x5 x6 (ix2 p k)) (val_main_v20 (F := Ideal) x1 (ix1 p))
          (fun k => val_main_v12 (F := Ideal) x0 x3 x4 x5 x6 (ix2 p k)) (fun k j => val_main_v35 (F := Ideal) x7 (ix2 k j)) (fun j => val_main_v38 (F := Ideal) x8 (ix1 j))
          (fun k j => val_main_v43 (F := Ideal) x9 (ix2 k j)) q := by
  rewrite [val_main_v45_apply, val_main_v41_apply, v36_row, v40_row, v44_row]
  simp only [convRow, affine, v33_row, Ideal.addf_def]

/-- The convolution through the perceptron's first weight, entry by entry. -/
theorem v54_row (p : Fin 50000) (q : Fin 64) :
    val_main_v54 (F := Ideal) x0 x1 x3 x4 x5 x6 x7 x8 x9 x10 (ix2 p q) = ∑ k : Fin 64, val_main_v45 (F := Ideal) x0 x1 x3 x4 x5 x6 x7 x8 x9 (ix2 p k) * val_main_v47 (F := Ideal) x10 (ix2 k q) := by
  rewrite [val_main_v54_apply]
  refine Finset.sum_congr rfl fun k _ => ?_
  rewrite [show lidx_main_v54 (ix2 p q) k = ix2 p k from idx2_ext rfl rfl,
    show ridx_main_v54 (ix2 p q) k = ix2 k q from idx2_ext rfl rfl]
  rfl

/-- The perceptron's first bias, broadcast along the node axis. -/
theorem v56_row (p : Fin 50000) (q : Fin 64) :
    val_main_v56 (F := Ideal) x11 (ix2 p q) = val_main_v49 (F := Ideal) x11 (ix1 q) := by
  rewrite [val_main_v56_apply, val_main_v55_apply]
  exact congrArg (val_main_v49 (F := Ideal) x11) (idx1_ext rfl)

/-- The zero the perceptron's rectification compares with, at every entry: the single-precision word of zero. -/
theorem zero1_row (i : S50000x64.Idx) :
    val_main_call1_v0 (F := Ideal) i = Ideal.ofBits .f32 0x00000000#32 :=
  (val_main_call1_v0_apply (F := Ideal) i).trans (val_main_call1_cst_apply (F := Ideal) _)

/-- The perceptron's hidden row at (p, q): the rectified affine image of the convolution's row p. -/
theorem v58_row (p : Fin 50000) (q : Fin 64) :
    val_main_v58 (F := Ideal) x0 x1 x3 x4 x5 x6 x7 x8 x9 x10 x11 (ix2 p q)
      = relu0 (affine (convRow (fun k : Fin 64 => val_main_v30 (F := Ideal) x0 x1 x3 x4 x5 x6 (ix2 p k)) (val_main_v20 (F := Ideal) x1 (ix1 p))
          (fun k => val_main_v12 (F := Ideal) x0 x3 x4 x5 x6 (ix2 p k)) (fun k j => val_main_v35 (F := Ideal) x7 (ix2 k j)) (fun j => val_main_v38 (F := Ideal) x8 (ix1 j))
          (fun k j => val_main_v43 (F := Ideal) x9 (ix2 k j)))
          (fun k j => val_main_v47 (F := Ideal) x10 (ix2 k j)) (fun j => val_main_v49 (F := Ideal) x11 (ix1 j)) q) := by
  rewrite [val_main_v58_apply, val_main_v57_apply, v54_row, v56_row, zero1_row]
  simp only [relu0, affine, v45_row, Ideal.addf_def, Ideal.maximumf_def]

/-- The hidden row through the perceptron's second weight, entry by entry. -/
theorem v59_row (p : Fin 50000) (q : Fin 64) :
    val_main_v59 (F := Ideal) x0 x1 x3 x4 x5 x6 x7 x8 x9 x10 x11 x12 (ix2 p q) = ∑ k : Fin 64, val_main_v58 (F := Ideal) x0 x1 x3 x4 x5 x6 x7 x8 x9 x10 x11 (ix2 p k) * val_main_v51 (F := Ideal) x12 (ix2 k q) := by
  rewrite [val_main_v59_apply]
  refine Finset.sum_congr rfl fun k _ => ?_
  rewrite [show lidx_main_v59 (ix2 p q) k = ix2 p k from idx2_ext rfl rfl,
    show ridx_main_v59 (ix2 p q) k = ix2 k q from idx2_ext rfl rfl]
  rfl

/-- The perceptron's second bias, broadcast along the node axis. -/
theorem v61_row (p : Fin 50000) (q : Fin 64) :
    val_main_v61 (F := Ideal) x13 (ix2 p q) = val_main_v53 (F := Ideal) x13 (ix1 q) := by
  rewrite [val_main_v61_apply, val_main_v60_apply]
  exact congrArg (val_main_v53 (F := Ideal) x13) (idx1_ext rfl)

/-- The zero the layer's last rectification compares with, at every entry. -/
theorem zero2_row (i : S50000x64.Idx) :
    val_main_call2_v0 (F := Ideal) i = Ideal.ofBits .f32 0x00000000#32 :=
  (val_main_call2_v0_apply (F := Ideal) i).trans (val_main_call2_cst_apply (F := Ideal) _)

/-- The first layer's result at (p, q) is `layerRow` of row p of its neighbour sum, the degree scale of node p and row p of
    its input, with the first slices of the stacked weights and biases. -/
theorem layer1_apply (p : Fin 50000) (q : Fin 64) :
    val_main_v63 (F := Ideal) x0 x1 x3 x4 x5 x6 x7 x8 x9 x10 x11 x12 x13 (ix2 p q)
      = layerRow (fun k : Fin 64 => val_main_v30 (F := Ideal) x0 x1 x3 x4 x5 x6 (ix2 p k)) (val_main_v20 (F := Ideal) x1 (ix1 p))
          (fun k => val_main_v12 (F := Ideal) x0 x3 x4 x5 x6 (ix2 p k))
          (fun k j => val_main_v35 (F := Ideal) x7 (ix2 k j)) (fun j => val_main_v38 (F := Ideal) x8 (ix1 j)) (fun k j => val_main_v43 (F := Ideal) x9 (ix2 k j))
          (fun k j => val_main_v47 (F := Ideal) x10 (ix2 k j)) (fun j => val_main_v49 (F := Ideal) x11 (ix1 j)) (fun k j => val_main_v51 (F := Ideal) x12 (ix2 k j)) (fun j => val_main_v53 (F := Ideal) x13 (ix1 j)) q := by
  rewrite [val_main_v63_apply, val_main_v62_apply, v59_row, v61_row, zero2_row]
  simp only [layerRow, relu0, affine, v58_row, Ideal.addf_def, Ideal.maximumf_def]

/-! ## The second graph-convolution layer -/

/-- The degree scale, broadcast along the feature axis: at (p, q) it is the scale of node p. -/
theorem v75_row (p : Fin 50000) (q : Fin 64) :
    val_main_v75 (F := Ideal) x1 (ix2 p q) = val_main_v20 (F := Ideal) x1 (ix1 p) := by
  rewrite [val_main_v75_apply, val_main_v74_apply]
  exact congrArg (val_main_v20 (F := Ideal) x1) (idx1_ext rfl)

/-- The scaled neighbour sum at (p, q): the neighbour sum there times the scale of node p. -/
theorem v76_row (p : Fin 50000) (q : Fin 64) :
    val_main_v76 (F := Ideal) x0 x1 x3 x4 x5 x6 x7 x8 x9 x10 x11 x12 x13 (ix2 p q)
      = val_main_v73 (F := Ideal) x0 x1 x3 x4 x5 x6 x7 x8 x9 x10 x11 x12 x13 (ix2 p q) * val_main_v20 (F := Ideal) x1 (ix1 p) := by
  rewrite [val_main_v76_apply, v75_row]
  rfl

/-- The scaled neighbour sum through the neighbour weight, entry by entry. -/
theorem v79_row (p : Fin 50000) (q : Fin 64) :
    val_main_v79 (F := Ideal) x0 x1 x3 x4 x5 x6 x7 x8 x9 x10 x11 x12 x13 (ix2 p q) = ∑ k : Fin 64, val_main_v76 (F := Ideal) x0 x1 x3 x4 x5 x6 x7 x8 x9 x10 x11 x12 x13 (ix2 p k) * val_main_v78 (F := Ideal) x7 (ix2 k q) := by
  rewrite [val_main_v79_apply]
  refine Finset.sum_congr rfl fun k _ => ?_
  rewrite [show lidx_main_v79 (ix2 p q) k = ix2 p k from idx2_ext rfl rfl,
    show ridx_main_v79 (ix2 p q) k = ix2 k q from idx2_ext rfl rfl]
  rfl

/-- The neighbour bias, broadcast along the node axis: at (p, q) it is the bias at q. -/
theorem v83_row (p : Fin 50000) (q : Fin 64) :
    val_main_v83 (F := Ideal) x8 (ix2 p q) = val_main_v81 (F := Ideal) x8 (ix1 q) := by
  rewrite [val_main_v83_apply, val_main_v82_apply]
  exact congrArg (val_main_v81 (F := Ideal) x8) (idx1_ext rfl)

/-- The node's own row through the root weight, entry by entry. -/
theorem v87_row (p : Fin 50000) (q : Fin 64) :
    val_main_v87 (F := Ideal) x0 x1 x3 x4 x5 x6 x7 x8 x9 x10 x11 x12 x13 (ix2 p q) = ∑ k : Fin 64, val_main_v63 (F := Ideal) x0 x1 x3 x4 x5 x6 x7 x8 x9 x10 x11 x12 x13 (ix2 p k) * val_main_v86 (F := Ideal) x9 (ix2 k q) := by
  rewrite [val_main_v87_apply]
  refine Finset.sum_congr rfl fun k _ => ?_
  rewrite [show lidx_main_v87 (ix2 p q) k = ix2 p k from idx2_ext rfl rfl,
    show ridx_main_v87 (ix2 p q) k = ix2 k q from idx2_ext rfl rfl]
  rfl

/-- The convolution at (p, q) is `convRow` of row p of the neighbour sum, the scale of node p and row p of the layer's
    input. -/
theorem v88_row (p : Fin 50000) (q : Fin 64) :
    val_main_v88 (F := Ideal) x0 x1 x3 x4 x5 x6 x7 x8 x9 x10 x11 x12 x13 (ix2 p q)
      = convRow (fun k : Fin 64 => val_main_v73 (F := Ideal) x0 x1 x3 x4 x5 x6 x7 x8 x9 x10 x11 x12 x13 (ix2 p k)) (val_main_v20 (F := Ideal) x1 (ix1 p))
          (fun k => val_main_v63 (F := Ideal) x0 x1 x3 x4 x5 x6 x7 x8 x9 x10 x11 x12 x13 (ix2 p k)) (fun k j => val_main_v78 (F := Ideal) x7 (ix2 k j)) (fun j => val_main_v81 (F := Ideal) x8 (ix1 j))
          (fun k j => val_main_v86 (F := Ideal) x9 (ix2 k j)) q := by
  rewrite [val_main_v88_apply, val_main_v84_apply, v79_row, v83_row, v87_row]
  simp only [convRow, affine, v76_row, Ideal.addf_def]

/-- The convolution through the perceptron's first weight, entry by entry. -/
theorem v97_row (p : Fin 50000) (q : Fin 64) :
    val_main_v97 (F := Ideal) x0 x1 x3 x4 x5 x6 x7 x8 x9 x10 x11 x12 x13 (ix2 p q) = ∑ k : Fin 64, val_main_v88 (F := Ideal) x0 x1 x3 x4 x5 x6 x7 x8 x9 x10 x11 x12 x13 (ix2 p k) * val_main_v90 (F := Ideal) x10 (ix2 k q) := by
  rewrite [val_main_v97_apply]
  refine Finset.sum_congr rfl fun k _ => ?_
  rewrite [show lidx_main_v97 (ix2 p q) k = ix2 p k from idx2_ext rfl rfl,
    show ridx_main_v97 (ix2 p q) k = ix2 k q from idx2_ext rfl rfl]
  rfl

/-- The perceptron's first bias, broadcast along the node axis. -/
theorem v99_row (p : Fin 50000) (q : Fin 64) :
    val_main_v99 (F := Ideal) x11 (ix2 p q) = val_main_v92 (F := Ideal) x11 (ix1 q) := by
  rewrite [val_main_v99_apply, val_main_v98_apply]
  exact congrArg (val_main_v92 (F := Ideal) x11) (idx1_ext rfl)

/-- The zero the perceptron's rectification compares with, at every entry: the single-precision word of zero. -/
theorem zero3_row (i : S50000x64.Idx) :
    val_main_call3_v0 (F := Ideal) i = Ideal.ofBits .f32 0x00000000#32 :=
  (val_main_call3_v0_apply (F := Ideal) i).trans (val_main_call3_cst_apply (F := Ideal) _)

/-- The perceptron's hidden row at (p, q): the rectified affine image of the convolution's row p. -/
theorem v101_row (p : Fin 50000) (q : Fin 64) :
    val_main_v101 (F := Ideal) x0 x1 x3 x4 x5 x6 x7 x8 x9 x10 x11 x12 x13 (ix2 p q)
      = relu0 (affine (convRow (fun k : Fin 64 => val_main_v73 (F := Ideal) x0 x1 x3 x4 x5 x6 x7 x8 x9 x10 x11 x12 x13 (ix2 p k)) (val_main_v20 (F := Ideal) x1 (ix1 p))
          (fun k => val_main_v63 (F := Ideal) x0 x1 x3 x4 x5 x6 x7 x8 x9 x10 x11 x12 x13 (ix2 p k)) (fun k j => val_main_v78 (F := Ideal) x7 (ix2 k j)) (fun j => val_main_v81 (F := Ideal) x8 (ix1 j))
          (fun k j => val_main_v86 (F := Ideal) x9 (ix2 k j)))
          (fun k j => val_main_v90 (F := Ideal) x10 (ix2 k j)) (fun j => val_main_v92 (F := Ideal) x11 (ix1 j)) q) := by
  rewrite [val_main_v101_apply, val_main_v100_apply, v97_row, v99_row, zero3_row]
  simp only [relu0, affine, v88_row, Ideal.addf_def, Ideal.maximumf_def]

/-- The hidden row through the perceptron's second weight, entry by entry. -/
theorem v102_row (p : Fin 50000) (q : Fin 64) :
    val_main_v102 (F := Ideal) x0 x1 x3 x4 x5 x6 x7 x8 x9 x10 x11 x12 x13 (ix2 p q) = ∑ k : Fin 64, val_main_v101 (F := Ideal) x0 x1 x3 x4 x5 x6 x7 x8 x9 x10 x11 x12 x13 (ix2 p k) * val_main_v94 (F := Ideal) x12 (ix2 k q) := by
  rewrite [val_main_v102_apply]
  refine Finset.sum_congr rfl fun k _ => ?_
  rewrite [show lidx_main_v102 (ix2 p q) k = ix2 p k from idx2_ext rfl rfl,
    show ridx_main_v102 (ix2 p q) k = ix2 k q from idx2_ext rfl rfl]
  rfl

/-- The perceptron's second bias, broadcast along the node axis. -/
theorem v104_row (p : Fin 50000) (q : Fin 64) :
    val_main_v104 (F := Ideal) x13 (ix2 p q) = val_main_v96 (F := Ideal) x13 (ix1 q) := by
  rewrite [val_main_v104_apply, val_main_v103_apply]
  exact congrArg (val_main_v96 (F := Ideal) x13) (idx1_ext rfl)

/-- The zero the layer's last rectification compares with, at every entry. -/
theorem zero4_row (i : S50000x64.Idx) :
    val_main_call4_v0 (F := Ideal) i = Ideal.ofBits .f32 0x00000000#32 :=
  (val_main_call4_v0_apply (F := Ideal) i).trans (val_main_call4_cst_apply (F := Ideal) _)

/-- The second layer's result at (p, q) is `layerRow` of row p of its neighbour sum, the degree scale of node p and row p of
    its input, with the second slices of the stacked weights and biases. -/
theorem layer2_apply (p : Fin 50000) (q : Fin 64) :
    val_main_v106 (F := Ideal) x0 x1 x3 x4 x5 x6 x7 x8 x9 x10 x11 x12 x13 (ix2 p q)
      = layerRow (fun k : Fin 64 => val_main_v73 (F := Ideal) x0 x1 x3 x4 x5 x6 x7 x8 x9 x10 x11 x12 x13 (ix2 p k)) (val_main_v20 (F := Ideal) x1 (ix1 p))
          (fun k => val_main_v63 (F := Ideal) x0 x1 x3 x4 x5 x6 x7 x8 x9 x10 x11 x12 x13 (ix2 p k))
          (fun k j => val_main_v78 (F := Ideal) x7 (ix2 k j)) (fun j => val_main_v81 (F := Ideal) x8 (ix1 j)) (fun k j => val_main_v86 (F := Ideal) x9 (ix2 k j))
          (fun k j => val_main_v90 (F := Ideal) x10 (ix2 k j)) (fun j => val_main_v92 (F := Ideal) x11 (ix1 j)) (fun k j => val_main_v94 (F := Ideal) x12 (ix2 k j)) (fun j => val_main_v96 (F := Ideal) x13 (ix1 j)) q := by
  rewrite [val_main_v106_apply, val_main_v105_apply, v102_row, v104_row, zero4_row]
  simp only [layerRow, relu0, affine, v101_row, Ideal.addf_def, Ideal.maximumf_def]

end Cert.GraphNet.Ref

end
-- ==== Proof.KRegion1.lean ====
/-
  The array layer kernel 1 leaves.

  The kernel runs at ten grid points; point t loads rows 5000·t … 5000·t + 4999 of the neighbour sums, of the column of
  degree scales and of the node rows, the whole weight matrices and bias rows, and writes back the same rows of its
  result. What point t writes back is block t of ONE function of the arrays — the graph-convolution layer `layerRow`
  of each node's rows —, the ten blocks cover every row (row i lies in block i / 5000), and so the result array is
  that function.
-/
import proofs.«107325_j9715216023821_2_alg».proof.Proof.Gen.KernelIdeal.Frame
import proofs.«107325_j9715216023821_2_alg».proof.Proof.Spec
import proofs.«107325_j9715216023821_2_alg».proof.Proof.KBody
import Idealize.ShloMosaic.Lib.ValueIdx
import Idealize.ShloMosaic.Lib.Pipeline.Value

set_option maxRecDepth 16384

noncomputable section

namespace Cert.GraphNet.Region1

open Cert.KernelIdeal Cert.KernelIdeal.Gen Idealize.ShloMosaic Idealize.ShloMosaic.TcCoe Idealize.ShloMosaic.ValueIdx Cert.GraphNet
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the row-tiled windows (the neighbour sums, the degree scales, the node rows, the
    result) are at block (t, 0), the operands loaded whole at block (0, 0). -/
theorem idx_facts : ∀ t : Fin cfg1.N,
    win1_0.index t (0 : Fin 2) = t.val ∧ win1_0.index t (1 : Fin 2) = 0
  ∧ win1_1.index t (0 : Fin 2) = t.val ∧ win1_1.index t (1 : Fin 2) = 0
  ∧ win1_2.index t (0 : Fin 2) = t.val ∧ win1_2.index t (1 : Fin 2) = 0
  ∧ win1_3.index t (0 : Fin 2) = 0 ∧ win1_3.index t (1 : Fin 2) = 0
  ∧ win1_4.index t (0 : Fin 2) = 0 ∧ win1_4.index t (1 : Fin 2) = 0
  ∧ win1_5.index t (0 : Fin 2) = 0 ∧ win1_5.index t (1 : Fin 2) = 0
  ∧ win1_6.index t (0 : Fin 2) = 0 ∧ win1_6.index t (1 : Fin 2) = 0
  ∧ win1_7.index t (0 : Fin 2) = 0 ∧ win1_7.index t (1 : Fin 2) = 0
  ∧ win1_8.index t (0 : Fin 2) = 0 ∧ win1_8.index t (1 : Fin 2) = 0
  ∧ win1_9.index t (0 : Fin 2) = 0 ∧ win1_9.index t (1 : Fin 2) = 0
  ∧ win1_10.index t (0 : Fin 2) = t.val ∧ win1_10.index t (1 : Fin 2) = 0 :=
  (by decide +kernel : ∀ t : Fin grid1.N, _)

/-- The layer at every node: the node's row of neighbour sums, its degree scale and its own row through `layerRow`,
    read at column `i 1`. The degree scales come as a column `[50000, 1]`, the biases as rows `[1, 64]`. -/
def arr (agg : S50000x64.Idx → EReal) (dcol : S50000x1.Idx → EReal) (h : S50000x64.Idx → EReal)
    (wrel : S64x64.Idx → EReal) (brel : S1x64.Idx → EReal) (wroot : S64x64.Idx → EReal) (w₁ : S64x64.Idx → EReal)
    (c₁ : S1x64.Idx → EReal) (w₂ : S64x64.Idx → EReal) (c₂ : S1x64.Idx → EReal) : S50000x64.Idx → EReal :=
  fun i => layerRow (fun k : Fin 64 => agg (ix2 (i 0) k)) (dcol (ix2 (i 0) (0 : Fin 1))) (fun k : Fin 64 => h (ix2 (i 0) k))
    (fun k j => wrel (ix2 k j)) (fun j => brel (ix2 (0 : Fin 1) j)) (fun k j => wroot (ix2 k j))
    (fun k j => w₁ (ix2 k j)) (fun j => c₁ (ix2 (0 : Fin 1) j)) (fun k j => w₂ (ix2 k j)) (fun j => c₂ (ix2 (0 : Fin 1) j)) (i 1)

/-- The neighbour sums' block at point t, entry (r, k): the array at the row the result's block has at r. -/
theorem read_agg (c : Dev nD) (t : Fin cfg1.N) (r : Fin 5000) (q : Fin 64) (k : Fin 64) :
    iblk1 V c 0 t (ix2 r k) = V c main_v26 (ix2 ((((cfg1.win 10).blk t).view.emb (ix2 r q)) 0) k) := by
  obtain ⟨e00, e01, -, -, -, -, -, -, -, -, -, -, -, -, -, -, -, -, -, -, e100, e101⟩ := idx_facts t
  show V c main_v26 (((cfg1.win 0).blk t).view.emb (ix2 r k)) = _
  refine congrArg (V c main_v26) (funext fun a => Fin.ext ?_)
  match a with
  | ⟨0, _⟩ => show win1_0.index t (0 : Fin 2) * 5000 + 1 * r.val = win1_10.index t (0 : Fin 2) * 5000 + 1 * r.val; omega
  | ⟨1, _⟩ => show win1_0.index t (1 : Fin 2) * 64 + 1 * k.val = k.val; omega

/-- The degree scales' block at point t, entry (r, 0): the column at the row the result's block has at r. -/
theorem read_deg (c : Dev nD) (t : Fin cfg1.N) (r : Fin 5000) (q : Fin 64) (k : Fin 1) :
    iblk1 V c 1 t (ix2 r k) = V c main_v15 (ix2 ((((cfg1.win 10).blk t).view.emb (ix2 r q)) 0) k) := by
  obtain ⟨-, -, e10, e11, -, -, -, -, -, -, -, -, -, -, -, -, -, -, -, -, e100, e101⟩ := idx_facts t
  show V c main_v15 (((cfg1.win 1).blk t).view.emb (ix2 r k)) = _
  refine congrArg (V c main_v15) (funext fun a => Fin.ext ?_)
  match a with
  | ⟨0, _⟩ => show win1_1.index t (0 : Fin 2) * 5000 + 1 * r.val = win1_10.index t (0 : Fin 2) * 5000 + 1 * r.val; omega
  | ⟨1, _⟩ => show win1_1.index t (1 : Fin 2) * 1 + 1 * k.val = k.val; omega

/-- The node rows' block at point t, entry (r, k): the array at the row the result's block has at r. -/
theorem read_h (c : Dev nD) (t : Fin cfg1.N) (r : Fin 5000) (q : Fin 64) (k : Fin 64) :
    iblk1 V c 2 t (ix2 r k) = V c main_v6 (ix2 ((((cfg1.win 10).blk t).view.emb (ix2 r q)) 0) k) := by
  obtain ⟨-, -, -, -, e20, e21, -, -, -, -, -, -, -, -, -, -, -, -, -, -, e100, e101⟩ := idx_facts t
  show V c main_v6 (((cfg1.win 2).blk t).view.emb (ix2 r k)) = _
  refine congrArg (V c main_v6) (funext fun a => Fin.ext ?_)
  match a with
  | ⟨0, _⟩ => show win1_2.index t (0 : Fin 2) * 5000 + 1 * r.val = win1_10.index t (0 : Fin 2) * 5000 + 1 * r.val; omega
  | ⟨1, _⟩ => show win1_2.index t (1 : Fin 2) * 64 + 1 * k.val = k.val; omega

/-- The neighbour weight matrix is loaded whole. -/
theorem read_wrel (c : Dev nD) (t : Fin cfg1.N) (k : Fin 64) (j : Fin 64) :
    iblk1 V c 3 t (ix2 k j) = V c main_v28 (ix2 k j) := by
  obtain ⟨-, -, -, -, -, -, e30, e31, -, -, -, -, -, -, -, -, -, -, -, -, -, -⟩ := idx_facts t
  show V c main_v28 (((cfg1.win 3).blk t).view.emb (ix2 k j)) = _
  refine congrArg (V c main_v28) (funext fun a => Fin.ext ?_)
  match a with
  | ⟨0, _⟩ => show win1_3.index t (0 : Fin 2) * 64 + 1 * k.val = k.val; omega
  | ⟨1, _⟩ => show win1_3.index t (1 : Fin 2) * 64 + 1 * j.val = j.val; omega

/-- The convolution's bias row is loaded whole. -/
theorem read_brel (c : Dev nD) (t : Fin cfg1.N) (k : Fin 1) (j : Fin 64) :
    iblk1 V c 4 t (ix2 k j) = V c main_v41 (ix2 k j) := by
  obtain ⟨-, -, -, -, -, -, -, -, e40, e41, -, -, -, -, -, -, -, -, -, -, -, -⟩ := idx_facts t
  show V c main_v41 (((cfg1.win 4).blk t).view.emb (ix2 k j)) = _
  refine congrArg (V c main_v41) (funext fun a => Fin.ext ?_)
  match a with
  | ⟨0, _⟩ => show win1_4.index t (0 : Fin 2) * 1 + 1 * k.val = k.val; omega
  | ⟨1, _⟩ => show win1_4.index t (1 : Fin 2) * 64 + 1 * j.val = j.val; omega

/-- The root weight matrix is loaded whole. -/
theorem read_wroot (c : Dev nD) (t : Fin cfg1.N) (k : Fin 64) (j : Fin 64) :
    iblk1 V c 5 t (ix2 k j) = V c main_v32 (ix2 k j) := by
  obtain ⟨-, -, -, -, -, -, -, -, -, -, e50, e51, -, -, -, -, -, -, -, -, -, -⟩ := idx_facts t
  show V c main_v32 (((cfg1.win 5).blk t).view.emb (ix2 k j)) = _
  refine congrArg (V c main_v32) (funext fun a => Fin.ext ?_)
  match a with
  | ⟨0, _⟩ => show win1_5.index t (0 : Fin 2) * 64 + 1 * k.val = k.val; omega
  | ⟨1, _⟩ => show win1_5.index t (1 : Fin 2) * 64 + 1 * j.val = j.val; omega

/-- The perceptron's first matrix is loaded whole. -/
theorem read_w1 (c : Dev nD) (t : Fin cfg1.N) (k : Fin 64) (j : Fin 64) :
    iblk1 V c 6 t (ix2 k j) = V c main_v34 (ix2 k j) := by
  obtain ⟨-, -, -, -, -, -, -, -, -, -, -, -, e60, e61, -, -, -, -, -, -, -, -⟩ := idx_facts t
  show V c main_v34 (((cfg1.win 6).blk t).view.emb (ix2 k j)) = _
  refine congrArg (V c main_v34) (funext fun a => Fin.ext ?_)
  match a with
  | ⟨0, _⟩ => show win1_6.index t (0 : Fin 2) * 64 + 1 * k.val = k.val; omega
  | ⟨1, _⟩ => show win1_6.index t (1 : Fin 2) * 64 + 1 * j.val = j.val; omega

/-- The perceptron's first bias row is loaded whole. -/
theorem read_c1 (c : Dev nD) (t : Fin cfg1.N) (k : Fin 1) (j : Fin 64) :
    iblk1 V c 7 t (ix2 k j) = V c main_v42 (ix2 k j) := by
  obtain ⟨-, -, -, -, -, -, -, -, -, -, -, -, -, -, e70, e71, -, -, -, -, -, -⟩ := idx_facts t
  show V c main_v42 (((cfg1.win 7).blk t).view.emb (ix2 k j)) = _
  refine congrArg (V c main_v42) (funext fun a => Fin.ext ?_)
  match a with
  | ⟨0, _⟩ => show win1_7.index t (0 : Fin 2) * 1 + 1 * k.val = k.val; omega
  | ⟨1, _⟩ => show win1_7.index t (1 : Fin 2) * 64 + 1 * j.val = j.val; omega

/-- The perceptron's second matrix is loaded whole. -/
theorem read_w2 (c : Dev nD) (t : Fin cfg1.N) (k : Fin 64) (j : Fin 64) :
    iblk1 V c 8 t (ix2 k j) = V c main_v38 (ix2 k j) := by
  obtain ⟨-, -, -, -, -, -, -, -, -, -, -, -, -, -, -, -, e80, e81, -, -, -, -⟩ := idx_facts t
  show V c main_v38 (((cfg1.win 8).blk t).view.emb (ix2 k j)) = _
  refine congrArg (V c main_v38) (funext fun a => Fin.ext ?_)
  match a with
  | ⟨0, _⟩ => show win1_8.index t (0 : Fin 2) * 64 + 1 * k.val = k.val; omega
  | ⟨1, _⟩ => show win1_8.index t (1 : Fin 2) * 64 + 1 * j.val = j.val; omega

/-- The perceptron's second bias row is loaded whole. -/
theorem read_c2 (c : Dev nD) (t : Fin cfg1.N) (k : Fin 1) (j : Fin 64) :
    iblk1 V c 9 t (ix2 k j) = V c main_v43 (ix2 k j) := by
  obtain ⟨-, -, -, -, -, -, -, -, -, -, -, -, -, -, -, -, -, -, e90, e91, -, -⟩ := idx_facts t
  show V c main_v43 (((cfg1.win 9).blk t).view.emb (ix2 k j)) = _
  refine congrArg (V c main_v43) (funext fun a => Fin.ext ?_)
  match a with
  | ⟨0, _⟩ => show win1_9.index t (0 : Fin 2) * 1 + 1 * k.val = k.val; omega
  | ⟨1, _⟩ => show win1_9.index t (1 : Fin 2) * 64 + 1 * j.val = j.val; omega

/-- The result's block at point t keeps the column: entry (r, q) sits in column q of the array. -/
theorem out_col (t : Fin cfg1.N) (r : Fin 5000) (q : Fin 64) :
    (((cfg1.win 10).blk t).view.emb (ix2 r q)) 1 = q := by
  obtain ⟨-, -, -, -, -, -, -, -, -, -, -, -, -, -, -, -, -, -, -, -, e100, e101⟩ := idx_facts t
  refine Fin.ext ?_
  show win1_10.index t (1 : Fin 2) * 64 + 1 * q.val = q.val
  omega

/-- WHAT POINT t WRITES BACK is block t of `arr` of the arrays as the kernel finds them. -/
theorem flushed_eq (c : Dev nD) (t : Fin cfg1.N) :
    (dat1 (F := Ideal) V c).flushed 10 t = ((cfg1.win 10).blk t).view.read (Elt Ideal)
      (arr (V c main_v26) (V c main_v15) (V c main_v6) (V c main_v28) (V c main_v41) (V c main_v32) (V c main_v34) (V c main_v42) (V c main_v38) (V c main_v43)) := by
  show (cfg1.win 10).cut (grid1.coords t) ((dat1 V c).after 10 t) = _
  rw [after1_10]
  unfold out1_10
  rw [View.canon_unit_zero hz]
  simp only [View.ld_unit_zero (S := S5000x64) hz, View.ld_unit_zero (S := S5000x1) hz, View.ld_unit_zero (S := S1x64) hz,
    View.ld_unit_zero (S := S64x64) hz]
  funext j
  obtain ⟨r, q, rfl⟩ : ∃ (r : Fin 5000) (q : Fin 64), j = ix2 r q := ⟨j 0, j 1, eq_ix2 j⟩
  show k1_pay1 (k1_pay2 (iblk1 V c 8 t)) (k1_pay3 (iblk1 V c 0 t) (iblk1 V c 1 t) (iblk1 V c 2 t) (iblk1 V c 3 t) (iblk1 V c 5 t) (iblk1 V c 4 t) (iblk1 V c 6 t) (iblk1 V c 7 t)) (iblk1 V c 9 t) (ix2 r q)
    = arr (V c main_v26) (V c main_v15) (V c main_v6) (V c main_v28) (V c main_v41) (V c main_v32) (V c main_v34) (V c main_v42) (V c main_v38) (V c main_v43) (((cfg1.win 10).blk t).view.emb (ix2 r q))
  refine (Body.layer1_apply (iblk1 V c 0 t) (iblk1 V c 1 t) (iblk1 V c 2 t) (iblk1 V c 3 t) (iblk1 V c 5 t) (iblk1 V c 4 t) (iblk1 V c 6 t) (iblk1 V c 7 t) (iblk1 V c 8 t) (iblk1 V c 9 t) r q).trans ?_
  unfold arr
  rw [out_col t r q]
  simp only [read_agg V c t r q, read_deg V c t r q, read_h V c t r q, read_wrel V c t, read_brel V c t, read_wroot V c t,
    read_w1 V c t, read_c1 V c t, read_w2 V c t, read_c2 V c t]

/-- An index of the array is in point t's block iff each coordinate is in the block's range on its axis. -/
theorem mem_blk (t : Fin cfg1.N) (i : S50000x64.Idx) :
    i ∈ ((cfg1.win 10).blk t).view.set ↔ ∀ a : Fin 2, win1_10.index t a * S5000x64.size a ≤ (i a).val
      ∧ (i a).val < win1_10.index t a * S5000x64.size a + S5000x64.size a := by
  show i ∈ ((View.whole main_v44).slice (win1_10.rect t)).set ↔ _
  rw [View.set_slice_whole, Rect.mem_set_unit]
  exact Iff.rfl

/-- Every row is in some point's block: row i in block i / 5000. -/
theorem cover (i : S50000x64.Idx) :
    ∃ t : Fin cfg1.N, (cfg1.win 10).flush t = true ∧ i ∈ ((cfg1.win 10).blk t).view.set := by
  have hi0 : (i 0).val < 50000 := (i 0).isLt
  have hi1 : (i 1).val < 64 := (i 1).isLt
  have hN : grid1.N = 10 := N_1
  have ht : (i 0).val / 5000 < grid1.N := by omega
  obtain ⟨-, -, -, -, -, -, -, -, -, -, -, -, -, -, -, -, -, -, -, -, e100, e101⟩ := idx_facts ⟨(i 0).val / 5000, ht⟩
  refine ⟨⟨(i 0).val / 5000, ht⟩, flush1_10 _, ?_⟩
  rw [mem_blk]
  intro a
  match a with
  | ⟨0, _⟩ =>
    show win1_10.index ⟨(i 0).val / 5000, ht⟩ (0 : Fin 2) * 5000 ≤ (i 0).val
      ∧ (i 0).val < win1_10.index ⟨(i 0).val / 5000, ht⟩ (0 : Fin 2) * 5000 + 5000
    rw [e100]; show (i 0).val / 5000 * 5000 ≤ (i 0).val ∧ (i 0).val < (i 0).val / 5000 * 5000 + 5000; omega
  | ⟨1, _⟩ =>
    show win1_10.index ⟨(i 0).val / 5000, ht⟩ (1 : Fin 2) * 64 ≤ (i 1).val
      ∧ (i 1).val < win1_10.index ⟨(i 0).val / 5000, ht⟩ (1 : Fin 2) * 64 + 64
    rw [e101]; omega

/-- THE ARRAY after the kernel: `arr` of the arrays as the kernel finds them. -/
theorem arr_eq (c : Dev nD) :
    (dat1 (F := Ideal) V c).arrAt 10 cfg1.N = arr (V c main_v26) (V c main_v15) (V c main_v6) (V c main_v28) (V c main_v41) (V c main_v32) (V c main_v34) (V c main_v42) (V c main_v38) (V c main_v43) :=
  (dat1 V c).arrAt_eq_of_cover 10 _ (fun t _ => flushed_eq V c t) cover

end Cert.GraphNet.Region1

end
-- ==== Proof.KRegion0.lean ====
/-
  The array the embedding kernel leaves.

  The kernel runs at ten grid points; point t loads rows 5000·t … 5000·t + 4999 of the node features, the whole weight
  matrices and bias rows, and writes back the same rows of its result. A block's entry (r, k) is the array's entry
  (5000·t + r, k) for a row-tiled operand and the array's entry (r, k) for an operand loaded whole. What point t writes
  back is therefore block t of ONE function of the arrays — the perceptron `embedRow` of each node's feature row —, the
  ten blocks cover every row (row i lies in block i / 5000), and so the result array is that function.
-/
import proofs.«107325_j9715216023821_2_alg».proof.Proof.Gen.KernelIdeal.Frame
import proofs.«107325_j9715216023821_2_alg».proof.Proof.Spec
import proofs.«107325_j9715216023821_2_alg».proof.Proof.KBody
import Idealize.ShloMosaic.Lib.ValueIdx
import Idealize.ShloMosaic.Lib.Pipeline.Value

set_option maxRecDepth 16384

noncomputable section

namespace Cert.GraphNet.Region0

open Cert.KernelIdeal Cert.KernelIdeal.Gen Idealize.ShloMosaic Idealize.ShloMosaic.TcCoe Idealize.ShloMosaic.ValueIdx Cert.GraphNet
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the row-tiled windows (the features, the result) are at block (t, 0), the
    operands loaded whole at block (0, 0). -/
theorem idx_facts : ∀ t : Fin cfg0.N,
    win0_0.index t (0 : Fin 2) = t.val ∧ win0_0.index t (1 : Fin 2) = 0
  ∧ win0_1.index t (0 : Fin 2) = 0 ∧ win0_1.index t (1 : Fin 2) = 0
  ∧ win0_2.index t (0 : Fin 2) = 0 ∧ win0_2.index t (1 : Fin 2) = 0
  ∧ win0_3.index t (0 : Fin 2) = 0 ∧ win0_3.index t (1 : Fin 2) = 0
  ∧ win0_4.index t (0 : Fin 2) = 0 ∧ win0_4.index t (1 : Fin 2) = 0
  ∧ win0_5.index t (0 : Fin 2) = t.val ∧ win0_5.index t (1 : Fin 2) = 0 :=
  (by decide +kernel : ∀ t : Fin grid0.N, _)

/-- The embedding of every node: row `i 0` of the features through the perceptron, read at column `i 1`. The biases
    come as rows `[1, 64]`. -/
def arr (x : S50000x128.Idx → EReal) (w₁ : S128x64.Idx → EReal) (b₁ : S1x64.Idx → EReal) (w₂ : S64x64.Idx → EReal)
    (b₂ : S1x64.Idx → EReal) : S50000x64.Idx → EReal :=
  fun i => embedRow (fun k : Fin 128 => x (ix2 (i 0) k)) (fun k j => w₁ (ix2 k j)) (fun j => b₁ (ix2 (0 : Fin 1) j))
    (fun k j => w₂ (ix2 k j)) (fun j => b₂ (ix2 (0 : Fin 1) j)) (i 1)

/-- The features' block at point t, entry (r, k): the array at the row the result's block has at r. -/
theorem read_x (c : Dev nD) (t : Fin cfg0.N) (r : Fin 5000) (q : Fin 64) (k : Fin 128) :
    iblk0 V c 0 t (ix2 r k) = V c main_arg0 (ix2 ((((cfg0.win 5).blk t).view.emb (ix2 r q)) 0) k) := by
  obtain ⟨e00, e01, -, -, -, -, -, -, -, -, e50, e51⟩ := idx_facts t
  show V c main_arg0 (((cfg0.win 0).blk t).view.emb (ix2 r k)) = _
  refine congrArg (V c main_arg0) (funext fun a => Fin.ext ?_)
  match a with
  | ⟨0, _⟩ => show win0_0.index t (0 : Fin 2) * 5000 + 1 * r.val = win0_5.index t (0 : Fin 2) * 5000 + 1 * r.val; omega
  | ⟨1, _⟩ => show win0_0.index t (1 : Fin 2) * 128 + 1 * k.val = k.val; omega

/-- The first weight matrix is loaded whole. -/
theorem read_w1 (c : Dev nD) (t : Fin cfg0.N) (k : Fin 128) (j : Fin 64) :
    iblk0 V c 1 t (ix2 k j) = V c main_arg3 (ix2 k j) := by
  obtain ⟨-, -, e10, e11, -, -, -, -, -, -, -, -⟩ := idx_facts t
  show V c main_arg3 (((cfg0.win 1).blk t).view.emb (ix2 k j)) = _
  refine congrArg (V c main_arg3) (funext fun a => Fin.ext ?_)
  match a with
  | ⟨0, _⟩ => show win0_1.index t (0 : Fin 2) * 128 + 1 * k.val = k.val; omega
  | ⟨1, _⟩ => show win0_1.index t (1 : Fin 2) * 64 + 1 * j.val = j.val; omega

/-- The first bias row is loaded whole. -/
theorem read_b1 (c : Dev nD) (t : Fin cfg0.N) (u : Fin 1) (j : Fin 64) :
    iblk0 V c 2 t (ix2 u j) = V c main_v4 (ix2 u j) := by
  obtain ⟨-, -, -, -, e20, e21, -, -, -, -, -, -⟩ := idx_facts t
  show V c main_v4 (((cfg0.win 2).blk t).view.emb (ix2 u j)) = _
  refine congrArg (V c main_v4) (funext fun a => Fin.ext ?_)
  match a with
  | ⟨0, _⟩ => show win0_2.index t (0 : Fin 2) * 1 + 1 * u.val = u.val; omega
  | ⟨1, _⟩ => show win0_2.index t (1 : Fin 2) * 64 + 1 * j.val = j.val; omega

/-- The second weight matrix is loaded whole. -/
theorem read_w2 (c : Dev nD) (t : Fin cfg0.N) (k : Fin 64) (j : Fin 64) :
    iblk0 V c 3 t (ix2 k j) = V c main_arg5 (ix2 k j) := by
  obtain ⟨-, -, -, -, -, -, e30, e31, -, -, -, -⟩ := idx_facts t
  show V c main_arg5 (((cfg0.win 3).blk t).view.emb (ix2 k j)) = _
  refine congrArg (V c main_arg5) (funext fun a => Fin.ext ?_)
  match a with
  | ⟨0, _⟩ => show win0_3.index t (0 : Fin 2) * 64 + 1 * k.val = k.val; omega
  | ⟨1, _⟩ => show win0_3.index t (1 : Fin 2) * 64 + 1 * j.val = j.val; omega

/-- The second bias row is loaded whole. -/
theorem read_b2 (c : Dev nD) (t : Fin cfg0.N) (u : Fin 1) (j : Fin 64) :
    iblk0 V c 4 t (ix2 u j) = V c main_v5 (ix2 u j) := by
  obtain ⟨-, -, -, -, -, -, -, -, e40, e41, -, -⟩ := idx_facts t
  show V c main_v5 (((cfg0.win 4).blk t).view.emb (ix2 u j)) = _
  refine congrArg (V c main_v5) (funext fun a => Fin.ext ?_)
  match a with
  | ⟨0, _⟩ => show win0_4.index t (0 : Fin 2) * 1 + 1 * u.val = u.val; omega
  | ⟨1, _⟩ => show win0_4.index t (1 : Fin 2) * 64 + 1 * j.val = j.val; omega

/-- The result's block at point t keeps the column: entry (r, q) sits in column q of the array. -/
theorem out_col (t : Fin cfg0.N) (r : Fin 5000) (q : Fin 64) :
    (((cfg0.win 5).blk t).view.emb (ix2 r q)) 1 = q := by
  obtain ⟨-, -, -, -, -, -, -, -, -, -, e50, e51⟩ := idx_facts t
  refine Fin.ext ?_
  show win0_5.index t (1 : Fin 2) * 64 + 1 * q.val = q.val
  omega

/-- WHAT POINT t WRITES BACK is block t of `arr` of the arrays as the kernel finds them. -/
theorem flushed_eq (c : Dev nD) (t : Fin cfg0.N) :
    (dat0 (F := Ideal) V c).flushed 5 t = ((cfg0.win 5).blk t).view.read (Elt Ideal)
      (arr (V c main_arg0) (V c main_arg3) (V c main_v4) (V c main_arg5) (V c main_v5)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x64) hz, View.ld_unit_zero (S := S1x64) hz,
    View.ld_unit_zero (S := S64x64) hz]
  funext j
  obtain ⟨r, q, rfl⟩ : ∃ (r : Fin 5000) (q : Fin 64), j = ix2 r q := ⟨j 0, j 1, eq_ix2 j⟩
  show k0_pay1 (iblk0 V c 0 t) (iblk0 V c 1 t) (iblk0 V c 2 t) (iblk0 V c 3 t) (iblk0 V c 4 t) (ix2 r q)
    = arr (V c main_arg0) (V c main_arg3) (V c main_v4) (V c main_arg5) (V c main_v5) (((cfg0.win 5).blk t).view.emb (ix2 r q))
  refine (Body.embed_apply (iblk0 V c 0 t) (iblk0 V c 1 t) (iblk0 V c 2 t) (iblk0 V c 3 t) (iblk0 V c 4 t) r q).trans ?_
  unfold arr
  rw [out_col t r q]
  simp only [read_x V c t r q, read_w1 V c t, read_b1 V c t, read_w2 V c t, read_b2 V c t]

/-- An index of the array is in point t's block iff each coordinate is in the block's range on its axis. -/
theorem mem_blk (t : Fin cfg0.N) (i : S50000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v6).slice (win0_5.rect t)).set ↔ _
  rw [View.set_slice_whole, Rect.mem_set_unit]
  exact Iff.rfl

/-- Every row is in some point's block: row i in block i / 5000. -/
theorem cover (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  have hN : grid0.N = 10 := N_0
  have ht : (i 0).val / 5000 < grid0.N := by omega
  obtain ⟨-, -, -, -, -, -, -, -, -, -, e50, e51⟩ := idx_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, ht⟩ (1 : Fin 2) * 64 ≤ (i 1).val
      ∧ (i 1).val < win0_5.index ⟨(i 0).val / 5000, ht⟩ (1 : Fin 2) * 64 + 64
    rw [e51]; omega

/-- THE ARRAY after the kernel: `arr` of the arrays as the kernel finds them. -/
theorem arr_eq (c : Dev nD) :
    (dat0 (F := Ideal) V c).arrAt 5 cfg0.N = arr (V c main_arg0) (V c main_arg3) (V c main_v4) (V c main_arg5) (V c main_v5) :=
  (dat0 V c).arrAt_eq_of_cover 5 _ (fun t _ => flushed_eq V c t) cover

end Cert.GraphNet.Region0

end
-- ==== Proof.KStage01.lean ====
/-
  The program's buffers up to the end of the embedding kernel.

  Before the first kernel the host only re-lays arguments: it cuts the edge list into its row of sources and its row of
  targets and views each bias vector as a row. Nothing writes an argument array, so every argument is still the launch
  array. The embedding kernel then replaces its result array by the perceptron of every node's feature row (the kernel's
  block-by-block result, the previous module), and that is entry by entry what the reference's embedding computes from
  the same arrays: its two matrix products, bias rows and rectification read at (p, q) are the same row function.
-/
import proofs.«107325_j9715216023821_2_alg».proof.Proof.Gen.KernelIdeal.Frame
import proofs.«107325_j9715216023821_2_alg».proof.Proof.Gen.ReferenceIdeal.Read
import proofs.«107325_j9715216023821_2_alg».proof.Proof.Spec
import proofs.«107325_j9715216023821_2_alg».proof.Proof.KRegion0
import proofs.«107325_j9715216023821_2_alg».proof.Proof.RefStages
import Idealize.ShloMosaic.Lib.StableHlo.Run
import Idealize.ShloMosaic.Lib.ValueLayout

set_option maxRecDepth 16384

noncomputable section

namespace Cert.GraphNet.Stages

open Cert.KernelIdeal Cert.KernelIdeal.Gen Idealize.ShloMosaic Idealize.ShloMosaic.TcCoe Idealize.ShloMosaic.StableHlo
open Idealize.ShloMosaic.ValueIdx Idealize.SL.Sem Cert.GraphNet

variable (m : (ℓ : Loc nD τ sig) → Buf (Elt Ideal) ℓ) (ρ : Dev nD → PrngReg) (c : Dev nD)

/-! ## After the first host stretch -/

/-- The edges' sources: row 0 of the edge list, as a vector. -/
theorem W1_v1 : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results
  all_goals rfl

/-- The edges' targets: row 1 of the edge list, as a vector. -/
theorem W1_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results
  all_goals rfl

/-- The embedding's first bias, viewed as a row. -/
theorem W1_v4 : W1 m ρ c (Proc.devRef .tc main_v4) = shapeCast S1x64 ((m ((c : Thread nD τ).loc main_arg4)) : S64.Idx → EReal) shapeCasts_S64_S1x64 := by
  show StableHlo.after hostOps0 (W0 m ρ c) (Proc.devRef .tc main_v4) = _
  after_results
  all_goals rfl

/-- The embedding's second bias, viewed as a row. -/
theorem W1_v5 : W1 m ρ c (Proc.devRef .tc main_v5) = shapeCast S1x64 ((m ((c : Thread nD τ).loc main_arg6)) : S64.Idx → EReal) shapeCasts_S64_S1x64 := by
  show StableHlo.after hostOps0 (W0 m ρ c) (Proc.devRef .tc main_v5) = _
  after_results
  all_goals rfl

/-- Argument 0 is still the launch array. -/
theorem W1_arg0 : W1 m ρ c (Proc.devRef .tc main_arg0) = m ((c : Thread nD τ).loc main_arg0) := by
  show StableHlo.after hostOps0 (W0 m ρ c) (Proc.devRef .tc main_arg0) = _
  after_results
  all_goals rfl

/-- Argument 3 is still the launch array. -/
theorem W1_arg3 : W1 m ρ c (Proc.devRef .tc main_arg3) = m ((c : Thread nD τ).loc main_arg3) := by
  show StableHlo.after hostOps0 (W0 m ρ c) (Proc.devRef .tc main_arg3) = _
  after_results
  all_goals rfl

/-- Argument 5 is still the launch array. -/
theorem W1_arg5 : W1 m ρ c (Proc.devRef .tc main_arg5) = m ((c : Thread nD τ).loc main_arg5) := by
  show StableHlo.after hostOps0 (W0 m ρ c) (Proc.devRef .tc main_arg5) = _
  after_results
  all_goals rfl

/-- Argument 7 is still the launch array. -/
theorem W1_arg7 : W1 m ρ c (Proc.devRef .tc main_arg7) = m ((c : Thread nD τ).loc main_arg7) := by
  show StableHlo.after hostOps0 (W0 m ρ c) (Proc.devRef .tc main_arg7) = _
  after_results
  all_goals rfl

/-- Argument 8 is still the launch array. -/
theorem W1_arg8 : W1 m ρ c (Proc.devRef .tc main_arg8) = m ((c : Thread nD τ).loc main_arg8) := by
  show StableHlo.after hostOps0 (W0 m ρ c) (Proc.devRef .tc main_arg8) = _
  after_results
  all_goals rfl

/-- Argument 9 is still the launch array. -/
theorem W1_arg9 : W1 m ρ c (Proc.devRef .tc main_arg9) = m ((c : Thread nD τ).loc main_arg9) := by
  show StableHlo.after hostOps0 (W0 m ρ c) (Proc.devRef .tc main_arg9) = _
  after_results
  all_goals rfl

/-- Argument 10 is still the launch array. -/
theorem W1_arg10 : W1 m ρ c (Proc.devRef .tc main_arg10) = m ((c : Thread nD τ).loc main_arg10) := by
  show StableHlo.after hostOps0 (W0 m ρ c) (Proc.devRef .tc main_arg10) = _
  after_results
  all_goals rfl

/-- Argument 11 is still the launch array. -/
theorem W1_arg11 : W1 m ρ c (Proc.devRef .tc main_arg11) = m ((c : Thread nD τ).loc main_arg11) := by
  show StableHlo.after hostOps0 (W0 m ρ c) (Proc.devRef .tc main_arg11) = _
  after_results
  all_goals rfl

/-- Argument 12 is still the launch array. -/
theorem W1_arg12 : W1 m ρ c (Proc.devRef .tc main_arg12) = m ((c : Thread nD τ).loc main_arg12) := by
  show StableHlo.after hostOps0 (W0 m ρ c) (Proc.devRef .tc main_arg12) = _
  after_results
  all_goals rfl

/-- Argument 13 is still the launch array. -/
theorem W1_arg13 : W1 m ρ c (Proc.devRef .tc main_arg13) = m ((c : Thread nD τ).loc main_arg13) := by
  show StableHlo.after hostOps0 (W0 m ρ c) (Proc.devRef .tc main_arg13) = _
  after_results
  all_goals rfl

/-- Argument 2 is still the launch array. -/
theorem W1_arg2 : W1 m ρ c (Proc.devRef .tc main_arg2) = m ((c : Thread nD τ).loc main_arg2) := by
  show StableHlo.after hostOps0 (W0 m ρ c) (Proc.devRef .tc main_arg2) = _
  after_results
  all_goals rfl

/-- Argument 14 is still the launch array. -/
theorem W1_arg14 : W1 m ρ c (Proc.devRef .tc main_arg14) = m ((c : Thread nD τ).loc main_arg14) := by
  show StableHlo.after hostOps0 (W0 m ρ c) (Proc.devRef .tc main_arg14) = _
  after_results
  all_goals rfl

/-- Argument 15 is still the launch array. -/
theorem W1_arg15 : W1 m ρ c (Proc.devRef .tc main_arg15) = m ((c : Thread nD τ).loc main_arg15) := by
  show StableHlo.after hostOps0 (W0 m ρ c) (Proc.devRef .tc main_arg15) = _
  after_results
  all_goals rfl

/-! ## After the embedding kernel -/

/-- The kernel leaves the edges' sources alone. -/
theorem W2_v1 : W2 m ρ c (Proc.devRef .tc main_v1) = Cert.ReferenceIdeal.Read.val_main_v1 (F := Ideal) (m ((c : Thread nD τ).loc main_arg1)) :=
  (W2_of_ne m ρ c main_v1 (by decide)).trans (W1_v1 m ρ c)

/-- The kernel leaves the edges' targets alone. -/
theorem W2_v3 : W2 m ρ c (Proc.devRef .tc main_v3) = Cert.ReferenceIdeal.Read.val_main_v3 (F := Ideal) (m ((c : Thread nD τ).loc main_arg1)) :=
  (W2_of_ne m ρ c main_v3 (by decide)).trans (W1_v3 m ρ c)

/-- Argument 7 is still the launch array. -/
theorem W2_arg7 : W2 m ρ c (Proc.devRef .tc main_arg7) = m ((c : Thread nD τ).loc main_arg7) :=
  (W2_of_ne m ρ c main_arg7 (by decide)).trans (W1_arg7 m ρ c)

/-- Argument 8 is still the launch array. -/
theorem W2_arg8 : W2 m ρ c (Proc.devRef .tc main_arg8) = m ((c : Thread nD τ).loc main_arg8) :=
  (W2_of_ne m ρ c main_arg8 (by decide)).trans (W1_arg8 m ρ c)

/-- Argument 9 is still the launch array. -/
theorem W2_arg9 : W2 m ρ c (Proc.devRef .tc main_arg9) = m ((c : Thread nD τ).loc main_arg9) :=
  (W2_of_ne m ρ c main_arg9 (by decide)).trans (W1_arg9 m ρ c)

/-- Argument 10 is still the launch array. -/
theorem W2_arg10 : W2 m ρ c (Proc.devRef .tc main_arg10) = m ((c : Thread nD τ).loc main_arg10) :=
  (W2_of_ne m ρ c main_arg10 (by decide)).trans (W1_arg10 m ρ c)

/-- Argument 11 is still the launch array. -/
theorem W2_arg11 : W2 m ρ c (Proc.devRef .tc main_arg11) = m ((c : Thread nD τ).loc main_arg11) :=
  (W2_of_ne m ρ c main_arg11 (by decide)).trans (W1_arg11 m ρ c)

/-- Argument 12 is still the launch array. -/
theorem W2_arg12 : W2 m ρ c (Proc.devRef .tc main_arg12) = m ((c : Thread nD τ).loc main_arg12) :=
  (W2_of_ne m ρ c main_arg12 (by decide)).trans (W1_arg12 m ρ c)

/-- Argument 13 is still the launch array. -/
theorem W2_arg13 : W2 m ρ c (Proc.devRef .tc main_arg13) = m ((c : Thread nD τ).loc main_arg13) :=
  (W2_of_ne m ρ c main_arg13 (by decide)).trans (W1_arg13 m ρ c)

/-- Argument 2 is still the launch array. -/
theorem W2_arg2 : W2 m ρ c (Proc.devRef .tc main_arg2) = m ((c : Thread nD τ).loc main_arg2) :=
  (W2_of_ne m ρ c main_arg2 (by decide)).trans (W1_arg2 m ρ c)

/-- Argument 14 is still the launch array. -/
theorem W2_arg14 : W2 m ρ c (Proc.devRef .tc main_arg14) = m ((c : Thread nD τ).loc main_arg14) :=
  (W2_of_ne m ρ c main_arg14 (by decide)).trans (W1_arg14 m ρ c)

/-- Argument 15 is still the launch array. -/
theorem W2_arg15 : W2 m ρ c (Proc.devRef .tc main_arg15) = m ((c : Thread nD τ).loc main_arg15) :=
  (W2_of_ne m ρ c main_arg15 (by decide)).trans (W1_arg15 m ρ c)

/-- THE EMBEDDING: the kernel's result array is the reference's embedding of the launch arrays. -/
theorem W2_v6 : W2 m ρ c (Proc.devRef .tc main_v6) = Cert.ReferenceIdeal.Read.val_main_v12 (F := Ideal) (m ((c : Thread nD τ).loc main_arg0)) (m ((c : Thread nD τ).loc main_arg3)) (m ((c : Thread nD τ).loc main_arg4)) (m ((c : Thread nD τ).loc main_arg5)) (m ((c : Thread nD τ).loc main_arg6)) := by
  refine (W2_arr m ρ c 5).trans ((Region0.arr_eq (V1 m ρ) c).trans ?_)
  have h0 : V1 m ρ c main_arg0 = (m ((c : Thread nD τ).loc main_arg0)) := W1_arg0 m ρ c
  have h3 : V1 m ρ c main_arg3 = (m ((c : Thread nD τ).loc main_arg3)) := W1_arg3 m ρ c
  have h5 : V1 m ρ c main_arg5 = (m ((c : Thread nD τ).loc main_arg5)) := W1_arg5 m ρ c
  have h4 : V1 m ρ c main_v4 = shapeCast S1x64 ((m ((c : Thread nD τ).loc main_arg4)) : S64.Idx → EReal) shapeCasts_S64_S1x64 := W1_v4 m ρ c
  have h6 : V1 m ρ c main_v5 = shapeCast S1x64 ((m ((c : Thread nD τ).loc main_arg6)) : S64.Idx → EReal) shapeCasts_S64_S1x64 := W1_v5 m ρ c
  rw [h0, h3, h5, h4, h6]
  funext i
  obtain ⟨p, q, rfl⟩ : ∃ (p : Fin 50000) (q : Fin 64), i = ix2 p q := ⟨i 0, i 1, eq_ix2 i⟩
  rw [Ref.embed_apply]
  unfold Region0.arr
  simp only [shapeCast_a_1a_apply]

end Cert.GraphNet.Stages

end
-- ==== Proof.KStage23.lean ====
/-
  The program's buffers from the embedding to the end of the first layer kernel.

  The host computes every node's in-degree by adding a one at each edge's target, turns it into the scale
  1 / max(deg, 1), gathers the embedded rows along the edges' sources and adds them up at the edges' targets, and cuts
  the first slice out of each stacked weight and bias. These are the reference's own operations applied to the same
  arrays, so each buffer holds the reference's stage of that name. The layer kernel then replaces its result array by
  the graph-convolution layer of every node's rows (the kernel's block-by-block result), and entry by entry that is what
  the reference's first layer computes from the same neighbour sums, scales, rows and weights.
-/
import proofs.«107325_j9715216023821_2_alg».proof.Proof.Gen.KernelIdeal.Frame
import proofs.«107325_j9715216023821_2_alg».proof.Proof.Gen.ReferenceIdeal.Read
import proofs.«107325_j9715216023821_2_alg».proof.Proof.Spec
import proofs.«107325_j9715216023821_2_alg».proof.Proof.KRegion1
import proofs.«107325_j9715216023821_2_alg».proof.Proof.RefStages
import proofs.«107325_j9715216023821_2_alg».proof.Proof.KStage01
import proofs.«107325_j9715216023821_2_alg».proof.Proof.LibColumnLayout
import Idealize.ShloMosaic.Lib.StableHlo.Run
import Idealize.ShloMosaic.Lib.ValueLayout

set_option maxRecDepth 16384

noncomputable section

namespace Cert.GraphNet.Stages

open Cert.KernelIdeal Cert.KernelIdeal.Gen Idealize.ShloMosaic Idealize.ShloMosaic.TcCoe Idealize.ShloMosaic.StableHlo
open Idealize.ShloMosaic.ValueIdx Idealize.SL.Sem Cert.GraphNet

variable (m : (ℓ : Loc nD τ sig) → Buf (Elt Ideal) ℓ) (ρ : Dev nD → PrngReg) (c : Dev nD)

/-! ## After the second host stretch -/

/-- The neighbour sums: the node rows gathered along the edges' sources and added up at the edges' targets — the reference's own operations on the same arrays (a widening of the float format is the identity at the exact values). -/
theorem W3_v26 : W3 m ρ c (Proc.devRef .tc main_v26) = Cert.ReferenceIdeal.Read.val_main_v30 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v26) = _
  after_results_simp
  rw [W2_v3 m ρ c, W2_v1 m ρ c, W2_v6 m ρ c]
  all_goals rfl

/-- The degree scales 1 / max(deg, 1), viewed as a column. -/
theorem W3_v15 : W3 m ρ c (Proc.devRef .tc main_v15) = shapeCast S50000x1 (Cert.ReferenceIdeal.Read.val_main_v20 (F := Ideal) (m ((c : Thread nD τ).loc main_arg1)) : S50000.Idx → EReal) shapeCasts_S50000_S50000x1 := by
  show StableHlo.after hostOps1 (W2 m ρ c) (Proc.devRef .tc main_v15) = _
  after_results_simp
  rw [W2_v3 m ρ c]
  all_goals rfl

/-- Slice 0 of stacked weight argument 7, as a matrix. -/
theorem W3_v28 : W3 m ρ c (Proc.devRef .tc main_v28) = Cert.ReferenceIdeal.Read.val_main_v35 (F := Ideal) (m ((c : Thread nD τ).loc main_arg7)) := by
  show StableHlo.after hostOps1 (W2 m ρ c) (Proc.devRef .tc main_v28) = _
  after_results_simp
  rw [W2_arg7 m ρ c]
  all_goals rfl

/-- Slice 0 of stacked weight argument 9, as a matrix. -/
theorem W3_v32 : W3 m ρ c (Proc.devRef .tc main_v32) = Cert.ReferenceIdeal.Read.val_main_v43 (F := Ideal) (m ((c : Thread nD τ).loc main_arg9)) := by
  show StableHlo.after hostOps1 (W2 m ρ c) (Proc.devRef .tc main_v32) = _
  after_results_simp
  rw [W2_arg9 m ρ c]
  all_goals rfl

/-- Slice 0 of stacked weight argument 10, as a matrix. -/
theorem W3_v34 : W3 m ρ c (Proc.devRef .tc main_v34) = Cert.ReferenceIdeal.Read.val_main_v47 (F := Ideal) (m ((c : Thread nD τ).loc main_arg10)) := by
  show StableHlo.after hostOps1 (W2 m ρ c) (Proc.devRef .tc main_v34) = _
  after_results_simp
  rw [W2_arg10 m ρ c]
  all_goals rfl

/-- Slice 0 of stacked weight argument 12, as a matrix. -/
theorem W3_v38 : W3 m ρ c (Proc.devRef .tc main_v38) = Cert.ReferenceIdeal.Read.val_main_v51 (F := Ideal) (m ((c : Thread nD τ).loc main_arg12)) := by
  show StableHlo.after hostOps1 (W2 m ρ c) (Proc.devRef .tc main_v38) = _
  after_results_simp
  rw [W2_arg12 m ρ c]
  all_goals rfl

/-- Slice 0 of stacked bias argument 8, viewed as a row. -/
theorem W3_v41 : W3 m ρ c (Proc.devRef .tc main_v41) = shapeCast S1x64 (Cert.ReferenceIdeal.Read.val_main_v38 (F := Ideal) (m ((c : Thread nD τ).loc main_arg8)) : S64.Idx → EReal) shapeCasts_S64_S1x64 := by
  show StableHlo.after hostOps1 (W2 m ρ c) (Proc.devRef .tc main_v41) = _
  after_results_simp
  rw [W2_arg8 m ρ c]
  all_goals rfl

/-- Slice 0 of stacked bias argument 11, viewed as a row. -/
theorem W3_v42 : W3 m ρ c (Proc.devRef .tc main_v42) = shapeCast S1x64 (Cert.ReferenceIdeal.Read.val_main_v49 (F := Ideal) (m ((c : Thread nD τ).loc main_arg11)) : S64.Idx → EReal) shapeCasts_S64_S1x64 := by
  show StableHlo.after hostOps1 (W2 m ρ c) (Proc.devRef .tc main_v42) = _
  after_results_simp
  rw [W2_arg11 m ρ c]
  all_goals rfl

/-- Slice 0 of stacked bias argument 13, viewed as a row. -/
theorem W3_v43 : W3 m ρ c (Proc.devRef .tc main_v43) = shapeCast S1x64 (Cert.ReferenceIdeal.Read.val_main_v53 (F := Ideal) (m ((c : Thread nD τ).loc main_arg13)) : S64.Idx → EReal) shapeCasts_S64_S1x64 := by
  show StableHlo.after hostOps1 (W2 m ρ c) (Proc.devRef .tc main_v43) = _
  after_results_simp
  rw [W2_arg13 m ρ c]
  all_goals rfl

/-- The host stretch leaves the embedding alone. -/
theorem W3_v6 : W3 m ρ c (Proc.devRef .tc main_v6) = Cert.ReferenceIdeal.Read.val_main_v12 (F := Ideal) (m ((c : Thread nD τ).loc main_arg0)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v6) = _
  after_results_simp
  exact W2_v6 m ρ c

/-- The host stretch leaves the edges' sources alone. -/
theorem W3_v1 : W3 m ρ c (Proc.devRef .tc main_v1) = Cert.ReferenceIdeal.Read.val_main_v1 (F := Ideal) (m ((c : Thread nD τ).loc main_arg1)) := by
  show StableHlo.after hostOps1 (W2 m ρ c) (Proc.devRef .tc main_v1) = _
  after_results_simp
  exact W2_v1 m ρ c

/-- The host stretch leaves the edges' targets alone. -/
theorem W3_v3 : W3 m ρ c (Proc.devRef .tc main_v3) = Cert.ReferenceIdeal.Read.val_main_v3 (F := Ideal) (m ((c : Thread nD τ).loc main_arg1)) := by
  show StableHlo.after hostOps1 (W2 m ρ c) (Proc.devRef .tc main_v3) = _
  after_results_simp
  exact W2_v3 m ρ c

/-- Argument 7 is still the launch array. -/
theorem W3_arg7 : W3 m ρ c (Proc.devRef .tc main_arg7) = m ((c : Thread nD τ).loc main_arg7) := by
  show StableHlo.after hostOps1 (W2 m ρ c) (Proc.devRef .tc main_arg7) = _
  after_results_simp
  exact W2_arg7 m ρ c

/-- Argument 8 is still the launch array. -/
theorem W3_arg8 : W3 m ρ c (Proc.devRef .tc main_arg8) = m ((c : Thread nD τ).loc main_arg8) := by
  show StableHlo.after hostOps1 (W2 m ρ c) (Proc.devRef .tc main_arg8) = _
  after_results_simp
  exact W2_arg8 m ρ c

/-- Argument 9 is still the launch array. -/
theorem W3_arg9 : W3 m ρ c (Proc.devRef .tc main_arg9) = m ((c : Thread nD τ).loc main_arg9) := by
  show StableHlo.after hostOps1 (W2 m ρ c) (Proc.devRef .tc main_arg9) = _
  after_results_simp
  exact W2_arg9 m ρ c

/-- Argument 10 is still the launch array. -/
theorem W3_arg10 : W3 m ρ c (Proc.devRef .tc main_arg10) = m ((c : Thread nD τ).loc main_arg10) := by
  show StableHlo.after hostOps1 (W2 m ρ c) (Proc.devRef .tc main_arg10) = _
  after_results_simp
  exact W2_arg10 m ρ c

/-- Argument 11 is still the launch array. -/
theorem W3_arg11 : W3 m ρ c (Proc.devRef .tc main_arg11) = m ((c : Thread nD τ).loc main_arg11) := by
  show StableHlo.after hostOps1 (W2 m ρ c) (Proc.devRef .tc main_arg11) = _
  after_results_simp
  exact W2_arg11 m ρ c

/-- Argument 12 is still the launch array. -/
theorem W3_arg12 : W3 m ρ c (Proc.devRef .tc main_arg12) = m ((c : Thread nD τ).loc main_arg12) := by
  show StableHlo.after hostOps1 (W2 m ρ c) (Proc.devRef .tc main_arg12) = _
  after_results_simp
  exact W2_arg12 m ρ c

/-- Argument 13 is still the launch array. -/
theorem W3_arg13 : W3 m ρ c (Proc.devRef .tc main_arg13) = m ((c : Thread nD τ).loc main_arg13) := by
  show StableHlo.after hostOps1 (W2 m ρ c) (Proc.devRef .tc main_arg13) = _
  after_results_simp
  exact W2_arg13 m ρ c

/-- Argument 2 is still the launch array. -/
theorem W3_arg2 : W3 m ρ c (Proc.devRef .tc main_arg2) = m ((c : Thread nD τ).loc main_arg2) := by
  show StableHlo.after hostOps1 (W2 m ρ c) (Proc.devRef .tc main_arg2) = _
  after_results_simp
  exact W2_arg2 m ρ c

/-- Argument 14 is still the launch array. -/
theorem W3_arg14 : W3 m ρ c (Proc.devRef .tc main_arg14) = m ((c : Thread nD τ).loc main_arg14) := by
  show StableHlo.after hostOps1 (W2 m ρ c) (Proc.devRef .tc main_arg14) = _
  after_results_simp
  exact W2_arg14 m ρ c

/-- Argument 15 is still the launch array. -/
theorem W3_arg15 : W3 m ρ c (Proc.devRef .tc main_arg15) = m ((c : Thread nD τ).loc main_arg15) := by
  show StableHlo.after hostOps1 (W2 m ρ c) (Proc.devRef .tc main_arg15) = _
  after_results_simp
  exact W2_arg15 m ρ c

/-! ## After layer kernel 1 -/

/-- The kernel leaves the edges' sources alone. -/
theorem W4_v1 : W4 m ρ c (Proc.devRef .tc main_v1) = Cert.ReferenceIdeal.Read.val_main_v1 (F := Ideal) (m ((c : Thread nD τ).loc main_arg1)) :=
  (W4_of_ne m ρ c main_v1 (by decide)).trans (W3_v1 m ρ c)

/-- The kernel leaves the edges' targets alone. -/
theorem W4_v3 : W4 m ρ c (Proc.devRef .tc main_v3) = Cert.ReferenceIdeal.Read.val_main_v3 (F := Ideal) (m ((c : Thread nD τ).loc main_arg1)) :=
  (W4_of_ne m ρ c main_v3 (by decide)).trans (W3_v3 m ρ c)

/-- The degree scales are an operand the kernel only reads: the array is as it was. -/
theorem W4_v15 : W4 m ρ c (Proc.devRef .tc main_v15) = shapeCast S50000x1 (Cert.ReferenceIdeal.Read.val_main_v20 (F := Ideal) (m ((c : Thread nD τ).loc main_arg1)) : S50000.Idx → EReal) shapeCasts_S50000_S50000x1 :=
  ((W4_arr m ρ c 1).trans (((dat1 (V3 m ρ) c).arrAt_in 1 rfl _).trans (A_eq1 (V3 m ρ) c 1))).trans (W3_v15 m ρ c)

/-- Argument 7 is still the launch array. -/
theorem W4_arg7 : W4 m ρ c (Proc.devRef .tc main_arg7) = m ((c : Thread nD τ).loc main_arg7) :=
  (W4_of_ne m ρ c main_arg7 (by decide)).trans (W3_arg7 m ρ c)

/-- Argument 8 is still the launch array. -/
theorem W4_arg8 : W4 m ρ c (Proc.devRef .tc main_arg8) = m ((c : Thread nD τ).loc main_arg8) :=
  (W4_of_ne m ρ c main_arg8 (by decide)).trans (W3_arg8 m ρ c)

/-- Argument 9 is still the launch array. -/
theorem W4_arg9 : W4 m ρ c (Proc.devRef .tc main_arg9) = m ((c : Thread nD τ).loc main_arg9) :=
  (W4_of_ne m ρ c main_arg9 (by decide)).trans (W3_arg9 m ρ c)

/-- Argument 10 is still the launch array. -/
theorem W4_arg10 : W4 m ρ c (Proc.devRef .tc main_arg10) = m ((c : Thread nD τ).loc main_arg10) :=
  (W4_of_ne m ρ c main_arg10 (by decide)).trans (W3_arg10 m ρ c)

/-- Argument 11 is still the launch array. -/
theorem W4_arg11 : W4 m ρ c (Proc.devRef .tc main_arg11) = m ((c : Thread nD τ).loc main_arg11) :=
  (W4_of_ne m ρ c main_arg11 (by decide)).trans (W3_arg11 m ρ c)

/-- Argument 12 is still the launch array. -/
theorem W4_arg12 : W4 m ρ c (Proc.devRef .tc main_arg12) = m ((c : Thread nD τ).loc main_arg12) :=
  (W4_of_ne m ρ c main_arg12 (by decide)).trans (W3_arg12 m ρ c)

/-- Argument 13 is still the launch array. -/
theorem W4_arg13 : W4 m ρ c (Proc.devRef .tc main_arg13) = m ((c : Thread nD τ).loc main_arg13) :=
  (W4_of_ne m ρ c main_arg13 (by decide)).trans (W3_arg13 m ρ c)

/-- Argument 2 is still the launch array. -/
theorem W4_arg2 : W4 m ρ c (Proc.devRef .tc main_arg2) = m ((c : Thread nD τ).loc main_arg2) :=
  (W4_of_ne m ρ c main_arg2 (by decide)).trans (W3_arg2 m ρ c)

/-- Argument 14 is still the launch array. -/
theorem W4_arg14 : W4 m ρ c (Proc.devRef .tc main_arg14) = m ((c : Thread nD τ).loc main_arg14) :=
  (W4_of_ne m ρ c main_arg14 (by decide)).trans (W3_arg14 m ρ c)

/-- Argument 15 is still the launch array. -/
theorem W4_arg15 : W4 m ρ c (Proc.devRef .tc main_arg15) = m ((c : Thread nD τ).loc main_arg15) :=
  (W4_of_ne m ρ c main_arg15 (by decide)).trans (W3_arg15 m ρ c)

/-- The layer's array function respects equality of its ten operands. -/
theorem arr1_congr {a0 b0 : S50000x64.Idx → EReal} {a1 b1 : S50000x1.Idx → EReal} {a2 b2 : S50000x64.Idx → EReal}
    {a3 b3 : S64x64.Idx → EReal} {a4 b4 : S1x64.Idx → EReal} {a5 b5 a6 b6 : S64x64.Idx → EReal} {a7 b7 : S1x64.Idx → EReal}
    {a8 b8 : S64x64.Idx → EReal} {a9 b9 : S1x64.Idx → EReal}
    (h0 : a0 = b0) (h1 : a1 = b1) (h2 : a2 = b2) (h3 : a3 = b3) (h4 : a4 = b4) (h5 : a5 = b5) (h6 : a6 = b6) (h7 : a7 = b7)
    (h8 : a8 = b8) (h9 : a9 = b9) :
    Region1.arr a0 a1 a2 a3 a4 a5 a6 a7 a8 a9 = Region1.arr b0 b1 b2 b3 b4 b5 b6 b7 b8 b9 := by
  subst h0 h1 h2 h3 h4 h5 h6 h7 h8 h9; rfl

/-- THE FIRST LAYER: the kernel's result array is the reference's first layer of the launch arrays. -/
theorem W4_v44 : W4 m ρ c (Proc.devRef .tc main_v44) = Cert.ReferenceIdeal.Read.val_main_v63 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have h0 : V3 m ρ c main_v26 = Cert.ReferenceIdeal.Read.val_main_v30 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := W3_v26 m ρ c
  have h1 : V3 m ρ c main_v15 = shapeCast S50000x1 (Cert.ReferenceIdeal.Read.val_main_v20 (F := Ideal) (m ((c : Thread nD τ).loc main_arg1)) : S50000.Idx → EReal) shapeCasts_S50000_S50000x1 := W3_v15 m ρ c
  have h2 : V3 m ρ c main_v6 = Cert.ReferenceIdeal.Read.val_main_v12 (F := Ideal) (m ((c : Thread nD τ).loc main_arg0)) (m ((c : Thread nD τ).loc main_arg3)) (m ((c : Thread nD τ).loc main_arg4)) (m ((c : Thread nD τ).loc main_arg5)) (m ((c : Thread nD τ).loc main_arg6)) := W3_v6 m ρ c
  have h3 : V3 m ρ c main_v28 = Cert.ReferenceIdeal.Read.val_main_v35 (F := Ideal) (m ((c : Thread nD τ).loc main_arg7)) := W3_v28 m ρ c
  have h4 : V3 m ρ c main_v41 = shapeCast S1x64 (Cert.ReferenceIdeal.Read.val_main_v38 (F := Ideal) (m ((c : Thread nD τ).loc main_arg8)) : S64.Idx → EReal) shapeCasts_S64_S1x64 := W3_v41 m ρ c
  have h5 : V3 m ρ c main_v32 = Cert.ReferenceIdeal.Read.val_main_v43 (F := Ideal) (m ((c : Thread nD τ).loc main_arg9)) := W3_v32 m ρ c
  have h6 : V3 m ρ c main_v34 = Cert.ReferenceIdeal.Read.val_main_v47 (F := Ideal) (m ((c : Thread nD τ).loc main_arg10)) := W3_v34 m ρ c
  have h7 : V3 m ρ c main_v42 = shapeCast S1x64 (Cert.ReferenceIdeal.Read.val_main_v49 (F := Ideal) (m ((c : Thread nD τ).loc main_arg11)) : S64.Idx → EReal) shapeCasts_S64_S1x64 := W3_v42 m ρ c
  have h8 : V3 m ρ c main_v38 = Cert.ReferenceIdeal.Read.val_main_v51 (F := Ideal) (m ((c : Thread nD τ).loc main_arg12)) := W3_v38 m ρ c
  have h9 : V3 m ρ c main_v43 = shapeCast S1x64 (Cert.ReferenceIdeal.Read.val_main_v53 (F := Ideal) (m ((c : Thread nD τ).loc main_arg13)) : S64.Idx → EReal) shapeCasts_S64_S1x64 := W3_v43 m ρ c
  refine (W4_arr m ρ c 10).trans ((Region1.arr_eq (V3 m ρ) c).trans ((arr1_congr h0 h1 h2 h3 h4 h5 h6 h7 h8 h9).trans ?_))
  funext i
  obtain ⟨p, q, rfl⟩ : ∃ (p : Fin 50000) (q : Fin 64), i = ix2 p q := ⟨i 0, i 1, eq_ix2 i⟩
  rw [Ref.layer1_apply]
  unfold Region1.arr
  simp only [shapeCast_a_1a_apply, Cert.ColumnLayout.shapeCast_a_a1_apply]

end Cert.GraphNet.Stages

end
-- ==== Proof.KStage45.lean ====
/-
  The program's buffers from the first layer to the end of the second layer kernel.

  The host gathers the first layer's rows along the edges' sources, adds them up at the edges' targets, and cuts the
  second slice out of each stacked weight and bias: the reference's own operations on the same arrays, so each buffer
  holds the reference's stage of that name; the degree scales are the ones computed before. The layer kernel then
  replaces its result array by the graph-convolution layer of every node's rows, and entry by entry that is what the
  reference's second layer computes from the same neighbour sums, scales, rows and weights.
-/
import proofs.«107325_j9715216023821_2_alg».proof.Proof.Gen.KernelIdeal.Frame
import proofs.«107325_j9715216023821_2_alg».proof.Proof.Gen.ReferenceIdeal.Read
import proofs.«107325_j9715216023821_2_alg».proof.Proof.Spec
import proofs.«107325_j9715216023821_2_alg».proof.Proof.KRegion2
import proofs.«107325_j9715216023821_2_alg».proof.Proof.RefStages
import proofs.«107325_j9715216023821_2_alg».proof.Proof.KStage23
import proofs.«107325_j9715216023821_2_alg».proof.Proof.LibColumnLayout
import Idealize.ShloMosaic.Lib.StableHlo.Run
import Idealize.ShloMosaic.Lib.ValueLayout

set_option maxRecDepth 16384

noncomputable section

namespace Cert.GraphNet.Stages

open Cert.KernelIdeal Cert.KernelIdeal.Gen Idealize.ShloMosaic Idealize.ShloMosaic.TcCoe Idealize.ShloMosaic.StableHlo
open Idealize.ShloMosaic.ValueIdx Idealize.SL.Sem Cert.GraphNet

variable (m : (ℓ : Loc nD τ sig) → Buf (Elt Ideal) ℓ) (ρ : Dev nD → PrngReg) (c : Dev nD)

/-! ## After the third host stretch -/

/-- The neighbour sums: the node rows gathered along the edges' sources and added up at the edges' targets — the reference's own operations on the same arrays (a widening of the float format is the identity at the exact values). -/
theorem W5_v55 : W5 m ρ c (Proc.devRef .tc main_v55) = Cert.ReferenceIdeal.Read.val_main_v73 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  show StableHlo.after hostOps2 (W4 m ρ c) (Proc.devRef .tc main_v55) = _
  after_results_simp
  rw [W4_v3 m ρ c, W4_v1 m ρ c, W4_v44 m ρ c]
  all_goals rfl

/-- Slice 1 of stacked weight argument 7, as a matrix. -/
theorem W5_v57 : W5 m ρ c (Proc.devRef .tc main_v57) = Cert.ReferenceIdeal.Read.val_main_v78 (F := Ideal) (m ((c : Thread nD τ).loc main_arg7)) := by
  show StableHlo.after hostOps2 (W4 m ρ c) (Proc.devRef .tc main_v57) = _
  after_results_simp
  rw [W4_arg7 m ρ c]
  all_goals rfl

/-- Slice 1 of stacked weight argument 9, as a matrix. -/
theorem W5_v61 : W5 m ρ c (Proc.devRef .tc main_v61) = Cert.ReferenceIdeal.Read.val_main_v86 (F := Ideal) (m ((c : Thread nD τ).loc main_arg9)) := by
  show StableHlo.after hostOps2 (W4 m ρ c) (Proc.devRef .tc main_v61) = _
  after_results_simp
  rw [W4_arg9 m ρ c]
  all_goals rfl

/-- Slice 1 of stacked weight argument 10, as a matrix. -/
theorem W5_v63 : W5 m ρ c (Proc.devRef .tc main_v63) = Cert.ReferenceIdeal.Read.val_main_v90 (F := Ideal) (m ((c : Thread nD τ).loc main_arg10)) := by
  show StableHlo.after hostOps2 (W4 m ρ c) (Proc.devRef .tc main_v63) = _
  after_results_simp
  rw [W4_arg10 m ρ c]
  all_goals rfl

/-- Slice 1 of stacked weight argument 12, as a matrix. -/
theorem W5_v67 : W5 m ρ c (Proc.devRef .tc main_v67) = Cert.ReferenceIdeal.Read.val_main_v94 (F := Ideal) (m ((c : Thread nD τ).loc main_arg12)) := by
  show StableHlo.after hostOps2 (W4 m ρ c) (Proc.devRef .tc main_v67) = _
  after_results_simp
  rw [W4_arg12 m ρ c]
  all_goals rfl

/-- Slice 1 of stacked bias argument 8, viewed as a row. -/
theorem W5_v70 : W5 m ρ c (Proc.devRef .tc main_v70) = shapeCast S1x64 (Cert.ReferenceIdeal.Read.val_main_v81 (F := Ideal) (m ((c : Thread nD τ).loc main_arg8)) : S64.Idx → EReal) shapeCasts_S64_S1x64 := by
  show StableHlo.after hostOps2 (W4 m ρ c) (Proc.devRef .tc main_v70) = _
  after_results_simp
  rw [W4_arg8 m ρ c]
  all_goals rfl

/-- Slice 1 of stacked bias argument 11, viewed as a row. -/
theorem W5_v71 : W5 m ρ c (Proc.devRef .tc main_v71) = shapeCast S1x64 (Cert.ReferenceIdeal.Read.val_main_v92 (F := Ideal) (m ((c : Thread nD τ).loc main_arg11)) : S64.Idx → EReal) shapeCasts_S64_S1x64 := by
  show StableHlo.after hostOps2 (W4 m ρ c) (Proc.devRef .tc main_v71) = _
  after_results_simp
  rw [W4_arg11 m ρ c]
  all_goals rfl

/-- Slice 1 of stacked bias argument 13, viewed as a row. -/
theorem W5_v72 : W5 m ρ c (Proc.devRef .tc main_v72) = shapeCast S1x64 (Cert.ReferenceIdeal.Read.val_main_v96 (F := Ideal) (m ((c : Thread nD τ).loc main_arg13)) : S64.Idx → EReal) shapeCasts_S64_S1x64 := by
  show StableHlo.after hostOps2 (W4 m ρ c) (Proc.devRef .tc main_v72) = _
  after_results_simp
  rw [W4_arg13 m ρ c]
  all_goals rfl

/-- The host stretch leaves the first layer's result alone. -/
theorem W5_v44 : W5 m ρ c (Proc.devRef .tc main_v44) = Cert.ReferenceIdeal.Read.val_main_v63 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  show StableHlo.after hostOps2 (W4 m ρ c) (Proc.devRef .tc main_v44) = _
  after_results_simp
  exact W4_v44 m ρ c

/-- The host stretch leaves the degree scales alone. -/
theorem W5_v15 : W5 m ρ c (Proc.devRef .tc main_v15) = shapeCast S50000x1 (Cert.ReferenceIdeal.Read.val_main_v20 (F := Ideal) (m ((c : Thread nD τ).loc main_arg1)) : S50000.Idx → EReal) shapeCasts_S50000_S50000x1 := by
  show StableHlo.after hostOps2 (W4 m ρ c) (Proc.devRef .tc main_v15) = _
  after_results_simp
  exact W4_v15 m ρ c

/-- Argument 2 is still the launch array. -/
theorem W5_arg2 : W5 m ρ c (Proc.devRef .tc main_arg2) = m ((c : Thread nD τ).loc main_arg2) := by
  show StableHlo.after hostOps2 (W4 m ρ c) (Proc.devRef .tc main_arg2) = _
  after_results_simp
  exact W4_arg2 m ρ c

/-- Argument 14 is still the launch array. -/
theorem W5_arg14 : W5 m ρ c (Proc.devRef .tc main_arg14) = m ((c : Thread nD τ).loc main_arg14) := by
  show StableHlo.after hostOps2 (W4 m ρ c) (Proc.devRef .tc main_arg14) = _
  after_results_simp
  exact W4_arg14 m ρ c

/-- Argument 15 is still the launch array. -/
theorem W5_arg15 : W5 m ρ c (Proc.devRef .tc main_arg15) = m ((c : Thread nD τ).loc main_arg15) := by
  show StableHlo.after hostOps2 (W4 m ρ c) (Proc.devRef .tc main_arg15) = _
  after_results_simp
  exact W4_arg15 m ρ c

/-! ## After layer kernel 2 -/

/-- Argument 2 is still the launch array. -/
theorem W6_arg2 : W6 m ρ c (Proc.devRef .tc main_arg2) = m ((c : Thread nD τ).loc main_arg2) :=
  (W6_of_ne m ρ c main_arg2 (by decide)).trans (W5_arg2 m ρ c)

/-- Argument 14 is still the launch array. -/
theorem W6_arg14 : W6 m ρ c (Proc.devRef .tc main_arg14) = m ((c : Thread nD τ).loc main_arg14) :=
  (W6_of_ne m ρ c main_arg14 (by decide)).trans (W5_arg14 m ρ c)

/-- Argument 15 is still the launch array. -/
theorem W6_arg15 : W6 m ρ c (Proc.devRef .tc main_arg15) = m ((c : Thread nD τ).loc main_arg15) :=
  (W6_of_ne m ρ c main_arg15 (by decide)).trans (W5_arg15 m ρ c)

/-- The layer's array function respects equality of its ten operands. -/
theorem arr2_congr {a0 b0 : S50000x64.Idx → EReal} {a1 b1 : S50000x1.Idx → EReal} {a2 b2 : S50000x64.Idx → EReal}
    {a3 b3 : S64x64.Idx → EReal} {a4 b4 : S1x64.Idx → EReal} {a5 b5 a6 b6 : S64x64.Idx → EReal} {a7 b7 : S1x64.Idx → EReal}
    {a8 b8 : S64x64.Idx → EReal} {a9 b9 : S1x64.Idx → EReal}
    (h0 : a0 = b0) (h1 : a1 = b1) (h2 : a2 = b2) (h3 : a3 = b3) (h4 : a4 = b4) (h5 : a5 = b5) (h6 : a6 = b6) (h7 : a7 = b7)
    (h8 : a8 = b8) (h9 : a9 = b9) :
    Region2.arr a0 a1 a2 a3 a4 a5 a6 a7 a8 a9 = Region2.arr b0 b1 b2 b3 b4 b5 b6 b7 b8 b9 := by
  subst h0 h1 h2 h3 h4 h5 h6 h7 h8 h9; rfl

/-- THE SECOND LAYER: the kernel's result array is the reference's second layer of the launch arrays. -/
theorem W6_v73 : W6 m ρ c (Proc.devRef .tc main_v73) = Cert.ReferenceIdeal.Read.val_main_v106 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have h0 : V5 m ρ c main_v55 = Cert.ReferenceIdeal.Read.val_main_v73 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := W5_v55 m ρ c
  have h1 : V5 m ρ c main_v15 = shapeCast S50000x1 (Cert.ReferenceIdeal.Read.val_main_v20 (F := Ideal) (m ((c : Thread nD τ).loc main_arg1)) : S50000.Idx → EReal) shapeCasts_S50000_S50000x1 := W5_v15 m ρ c
  have h2 : V5 m ρ c main_v44 = Cert.ReferenceIdeal.Read.val_main_v63 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := W5_v44 m ρ c
  have h3 : V5 m ρ c main_v57 = Cert.ReferenceIdeal.Read.val_main_v78 (F := Ideal) (m ((c : Thread nD τ).loc main_arg7)) := W5_v57 m ρ c
  have h4 : V5 m ρ c main_v70 = shapeCast S1x64 (Cert.ReferenceIdeal.Read.val_main_v81 (F := Ideal) (m ((c : Thread nD τ).loc main_arg8)) : S64.Idx → EReal) shapeCasts_S64_S1x64 := W5_v70 m ρ c
  have h5 : V5 m ρ c main_v61 = Cert.ReferenceIdeal.Read.val_main_v86 (F := Ideal) (m ((c : Thread nD τ).loc main_arg9)) := W5_v61 m ρ c
  have h6 : V5 m ρ c main_v63 = Cert.ReferenceIdeal.Read.val_main_v90 (F := Ideal) (m ((c : Thread nD τ).loc main_arg10)) := W5_v63 m ρ c
  have h7 : V5 m ρ c main_v71 = shapeCast S1x64 (Cert.ReferenceIdeal.Read.val_main_v92 (F := Ideal) (m ((c : Thread nD τ).loc main_arg11)) : S64.Idx → EReal) shapeCasts_S64_S1x64 := W5_v71 m ρ c
  have h8 : V5 m ρ c main_v67 = Cert.ReferenceIdeal.Read.val_main_v94 (F := Ideal) (m ((c : Thread nD τ).loc main_arg12)) := W5_v67 m ρ c
  have h9 : V5 m ρ c main_v72 = shapeCast S1x64 (Cert.ReferenceIdeal.Read.val_main_v96 (F := Ideal) (m ((c : Thread nD τ).loc main_arg13)) : S64.Idx → EReal) shapeCasts_S64_S1x64 := W5_v72 m ρ c
  refine (W6_arr m ρ c 10).trans ((Region2.arr_eq (V5 m ρ) c).trans ((arr2_congr h0 h1 h2 h3 h4 h5 h6 h7 h8 h9).trans ?_))
  funext i
  obtain ⟨p, q, rfl⟩ : ∃ (p : Fin 50000) (q : Fin 64), i = ix2 p q := ⟨i 0, i 1, eq_ix2 i⟩
  rw [Ref.layer2_apply]
  unfold Region2.arr
  simp only [shapeCast_a_1a_apply, Cert.ColumnLayout.shapeCast_a_a1_apply]

end Cert.GraphNet.Stages

end
-- ==== Proof.KStage67.lean ====
/-
  The program's result array.

  After the second layer the host counts the nodes of each graph by adding a one at each node's graph number, adds up
  the second layer's rows per graph, divides by max(count, 1), multiplies by the classifier matrix and adds its bias:
  the reference's own operations, applied to the second layer's result (which is the reference's) and to the same
  arguments. So the result array holds the reference's result of the launch arrays.
-/
import proofs.«107325_j9715216023821_2_alg».proof.Proof.Gen.KernelIdeal.Frame
import proofs.«107325_j9715216023821_2_alg».proof.Proof.Gen.ReferenceIdeal.Read
import proofs.«107325_j9715216023821_2_alg».proof.Proof.KStage45
import Idealize.ShloMosaic.Lib.StableHlo.Run

set_option maxRecDepth 16384

noncomputable section

namespace Cert.GraphNet.Stages

open Cert.KernelIdeal Cert.KernelIdeal.Gen Idealize.ShloMosaic Idealize.ShloMosaic.TcCoe Idealize.ShloMosaic.StableHlo
open Idealize.ShloMosaic.ValueIdx Idealize.SL.Sem Cert.GraphNet

variable (m : (ℓ : Loc nD τ sig) → Buf (Elt Ideal) ℓ) (ρ : Dev nD → PrngReg) (c : Dev nD)

/-- THE RESULT: mean pooling per graph and the classifier, on the second layer's rows. -/
theorem W7_v90 : W7 m ρ c (Proc.devRef .tc main_v90) = Cert.ReferenceIdeal.Read.val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  show StableHlo.after hostOps3 (W6 m ρ c) (Proc.devRef .tc main_v90) = _
  after_results_simp
  rw [W6_arg2 m ρ c, W6_v73 m ρ c, W6_arg14 m ρ c, W6_arg15 m ρ c]
  all_goals rfl

end Cert.GraphNet.Stages

end
-- ==== Proof.lean ====
/-
  A two-layer graph convolution network with mean pooling and a linear classifier: three kernels among host
  operations against the plain array program, equal at the exact values.

  Both programs compute, for node features x, an edge list and a graph number per node:
      h₀ = relu (x · W₁ + b₁) · W₂ + b₂                                    (the embedding, row by row)
      d  = 1 / max (deg, 1),   deg = the number of edges ending at the node
      hₗ₊₁ = relu (relu (((aₗ * d) · W_rel + b_rel + hₗ · W_root) · P₁ + c₁) · P₂ + c₂),
             aₗ = the sum over the edges ending at the node of hₗ at the edge's source   (two layers)
      out = (the per-graph sum of h₂ / max (count, 1)) · W_cls + b_cls.
  The kernel program runs the embedding and the two layers as kernels tiled over blocks of five thousand nodes, with
  narrower float formats inside; the degrees, the gathers and neighbour sums, the pooling and the classifier are host
  operations, the same ones the reference uses. Over the extended reals a change of float format is the identity and
  a matrix product into a zero tile is the plain sum over the contracted index, and every dense stage acts on each
  node's rows alone, so a kernel's result array is the reference's stage entry by entry (Spec, KBody, KRegion0–2,
  RefStages); the host operations in between are then the same functions of equal arrays (KStage01–67). The sums and
  products stand in the same order on both sides: no law of arithmetic is used, and the inputs' finiteness is not
  needed. The ideal pass rewrote nothing, so `preserves` holds trivially; the kernels' frames are the generated ones,
  and the reference's frame is its generated run with the result dropped.
-/
import proofs.«107325_j9715216023821_2_alg».proof.Defs
import proofs.«107325_j9715216023821_2_alg».proof.Proof.Gen.Kernel
import proofs.«107325_j9715216023821_2_alg».proof.Proof.Gen.Kernel.Skeleton
import proofs.«107325_j9715216023821_2_alg».proof.Proof.Gen.Kernel.Launch
import proofs.«107325_j9715216023821_2_alg».proof.Proof.Gen.Kernel.Points
import proofs.«107325_j9715216023821_2_alg».proof.Proof.Gen.Kernel.Frame
import proofs.«107325_j9715216023821_2_alg».proof.Proof.Gen.KernelIdeal
import proofs.«107325_j9715216023821_2_alg».proof.Proof.Gen.KernelIdeal.Skeleton
import proofs.«107325_j9715216023821_2_alg».proof.Proof.Gen.KernelIdeal.Launch
import proofs.«107325_j9715216023821_2_alg».proof.Proof.Gen.KernelIdeal.Points
import proofs.«107325_j9715216023821_2_alg».proof.Proof.Gen.KernelIdeal.Frame
import proofs.«107325_j9715216023821_2_alg».proof.Proof.Gen.ReferenceIdeal
import proofs.«107325_j9715216023821_2_alg».proof.Proof.Gen.ReferenceIdeal.Read
import proofs.«107325_j9715216023821_2_alg».proof.Proof.Gen.Pre_finite_inputs
import proofs.«107325_j9715216023821_2_alg».proof.Proof.KRun
import proofs.«107325_j9715216023821_2_alg».proof.Proof.KStage67
import Idealize.ShloMosaic.Adequacy
import Idealize.ShloMosaic.Init

noncomputable section

namespace Cert.Proof

open Idealize.ShloMosaic Idealize.SL.Sem

/-- The word-level kernel program runs and leaves its arguments: the generated frame. -/
theorem frame_k : Cert.frame_Kernel := fun m ρ _ => Cert.Kernel.Gen.frame m ρ

/-- The idealized kernel program runs and leaves its arguments: the generated frame. -/
theorem frame_ki : Cert.frame_KernelIdeal := fun m ρ _ => Cert.KernelIdeal.Gen.frame m ρ

/-- The reference runs and leaves its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the reference's result of those arguments: the
    kernel program by the chain of its boundaries' contents, the reference by its own run. -/
theorem algebraic : Cert.algebraic_KernelIdeal_ReferenceIdeal := by
  intro m ρ m' ρ' _ hagree
  refine ⟨fun c => Cert.ReferenceIdeal.Read.val_main_v122 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.GraphNet.Stages.W7_v90 m ρ c), (h c).2⟩)
      (Cert.KernelIdeal.ValueRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨g0, g1, g2, g3, g4, g5, g6, g7, g8, g9, g10, g11, g12, g13, g14, g15⟩ := hagree c
    rw [Cert.ReferenceIdeal.Read.val_main_v122_eq, g0, g1, g2, g3, g4, g5, g6, g7, g8, g9, g10, g11, g12, g13, g14, g15]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
